-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S800000 : Shape := ⟨1, ![800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S200000x64 .f32) (main_arg1 : IVec S800000 32) (main_arg2 : IVec S800000 32) (main_arg3 : FVec F S64x128 .f32) (main_arg4 : FVec F S128 .f32) (main_arg5 : FVec F S3x128x128 .f32) (main_arg6 : FVec F S3x128x128 .f32) (main_arg7 : FVec F S3x128 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S200000x64 : Shape := ⟨2, ![200000, 64]⟩
abbrev S800000 : Shape := ⟨1, ![800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩
abbrev S200000 : Shape := ⟨1, ![200000]⟩
abbrev S800000x1 : Shape := ⟨2, ![800000, 1]⟩
abbrev S200000x1 : Shape := ⟨2, ![200000, 1]⟩
abbrev S1x128 : Shape := ⟨2, ![1, 128]⟩
abbrev S200000x128 : Shape := ⟨2, ![200000, 128]⟩
abbrev S4000x64 : Shape := ⟨2, ![4000, 64]⟩
abbrev S4000x128 : Shape := ⟨2, ![4000, 128]⟩
abbrev S800000x128 : Shape := ⟨2, ![800000, 128]⟩
abbrev S1x128x128 : Shape := ⟨3, ![1, 128, 128]⟩
abbrev S128x128 : Shape := ⟨2, ![128, 128]⟩
abbrev S4000x1 : Shape := ⟨2, ![4000, 1]⟩

abbrev nBuf : Space → Nat
  | .hbm => 93
  | .vmem => 39
  | .smem => 0
  | _ => 0

abbrev bufTy : (tb : Table) → Fin (tcTables nBuf tb) → BufTy
  | .hbm, ⟨0, _⟩ => ⟨S200000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S200000, .f32⟩
  | .hbm, ⟨12, _⟩ => ⟨S800000x1, .i32⟩
  | .hbm, ⟨13, _⟩ => ⟨S200000, .f32⟩
  | .hbm, ⟨14, _⟩ => ⟨S_, .f32⟩
  | .hbm, ⟨15, _⟩ => ⟨S200000, .f32⟩
  | .hbm, ⟨16, _⟩ => ⟨S200000, .i1⟩
  | .hbm, ⟨17, _⟩ => ⟨S_, .f32⟩
  | .hbm, ⟨18, _⟩ => ⟨S200000, .f32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S_, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S200000x1, .f32⟩
  | .hbm, ⟨28, _⟩ => ⟨S1x128, .f32⟩
  | .hbm, ⟨29, _⟩ => ⟨S200000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S200000x128, .f32⟩
  | .hbm, ⟨41, _⟩ => ⟨S800000x1, .i32⟩
  | .hbm, ⟨42, _⟩ => ⟨S200000x128, .f32⟩
  | .hbm, ⟨43, _⟩ => ⟨S1x128x128, .f32⟩
  | .hbm, ⟨44, _⟩ => ⟨S128x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S200000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S200000x128, .f32⟩
  | .hbm, ⟨62, _⟩ => ⟨S800000x1, .i32⟩
  | .hbm, ⟨63, _⟩ => ⟨S200000x128, .f32⟩
  | .hbm, ⟨64, _⟩ => ⟨S1x128x128, .f32⟩
  | .hbm, ⟨65, _⟩ => ⟨S128x128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S200000x128, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x128, .f32⟩
  | .hbm, ⟨81, _⟩ => ⟨S_, .f32⟩
  | .hbm, ⟨82, _⟩ => ⟨S200000x128, .f32⟩
  | .hbm, ⟨83, _⟩ => ⟨S800000x1, .i32⟩
  | .hbm, ⟨84, _⟩ => ⟨S200000x128, .f32⟩
  | .hbm, ⟨85, _⟩ => ⟨S1x128x128, .f32⟩
  | .hbm, ⟨86, _⟩ => ⟨S128x128, .f32⟩
  | .hbm, ⟨87, _⟩ => ⟨S1x128x128, .f32⟩
  | .hbm, ⟨88, _⟩ => ⟨S128x128, .f32⟩
  | .hbm, ⟨89, _⟩ => ⟨S1x128, .f32⟩
  | .hbm, ⟨90, _⟩ => ⟨S128, .f32⟩
  | .hbm, ⟨91, _⟩ => ⟨S1x128, .f32⟩
  | .hbm, ⟨92, _⟩ => ⟨S200000x128, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x1, .f32⟩
  | .local _ .vmem, ⟨22, _⟩ => ⟨S4000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x1, .f32⟩
  | .local _ .vmem, ⟨33, _⟩ => ⟨S4000x1, .f32⟩
  | .local _ .vmem, ⟨34, _⟩ => ⟨S128x128, .f32⟩
  | .local _ .vmem, ⟨35, _⟩ => ⟨S128x128, .f32⟩
  | .local _ .vmem, ⟨36, _⟩ => ⟨S1x128, .f32⟩
  | .local _ .vmem, ⟨37, _⟩ => ⟨S4000x128, .f32⟩
  | .local _ .vmem, ⟨38, _⟩ => ⟨S4000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  shapeCasts_S200000_S200000x1 : S200000.ShapeCasts S200000x1
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S200000x128 : S_.BroadcastsInDim S200000x128 (![] : Fin 0 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S200000_S800000x1_S800000_n_0_0_1_wf : ScatterDims.WF S200000 S800000x1 S800000 [] [0] [0] 1
  dot_S4000x64_S64x128_S4000x128_1_0_0_1_n_n_wf : DotDims.WF S4000x64 S64x128 S4000x128 [1] [0] [0] [1] [] []
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S200000x128.size a
  hwx0_3 : ∀ i : grid0.Coords, EltTy.bits .f32 = 32 ∨ (Rect.block (s := S200000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S200000x128.size a
  hwx1_6 : ∀ i : grid1.Coords, EltTy.bits .f32 = 32 ∨ (Rect.block (s := S200000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S200000x128.size a
  hwx2_6 : ∀ i : grid2.Coords, EltTy.bits .f32 = 32 ∨ (Rect.block (s := S200000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S200000x128.size a
  hwx3_1 : ∀ i : grid3.Coords, EltTy.bits .f32 = 32 ∨ (Rect.block (s := S200000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S200000x1.size a
  hwx3_2 : ∀ i : grid3.Coords, EltTy.bits .f32 = 32 ∨ (Rect.block (s := S200000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S200000x128.size a
  hwx3_6 : ∀ i : grid3.Coords, EltTy.bits .f32 = 32 ∨ (Rect.block (s := S200000x128) S4000x128.size (cc3_transform_6 i) (hinb3_6 i)).WholeWords (EltTy.packing .f32)

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S200000x64 : Shape := ⟨2, ![200000, 64]⟩
abbrev S800000 : Shape := ⟨1, ![800000]⟩
abbrev S64x128 : Shape := ⟨2, ![64, 128]⟩
abbrev S128 : Shape := ⟨1, ![128]⟩
abbrev S3x128x128 : Shape := ⟨3, ![3, 128, 128]⟩
abbrev S3x128 : Shape := ⟨2, ![3, 128]⟩
abbrev S200000x128 : Shape := ⟨2, ![200000, 128]⟩
abbrev S1x128 : Shape := ⟨2, ![1, 128]⟩
abbrev S_ : Shape := ⟨0, ![]⟩
abbrev S200000 : Shape := ⟨1, ![200000]⟩
abbrev S800000x1 : Shape := ⟨2, ![800000, 1]⟩
abbrev S200000x1 : Shape := ⟨2, ![200000, 1]⟩
abbrev S800000x128 : Shape := ⟨2, ![800000, 128]⟩
abbrev S1x128x128 : Shape := ⟨3, ![1, 128, 128]⟩
abbrev S128x128 : Shape := ⟨2, ![128, 128]⟩

abbrev nBuf : Space → Nat
  | .hbm => 123
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S800000, .i32⟩
  | .hbm, ⟨2, _⟩ => ⟨S800000, .i32⟩
  | .hbm, ⟨3, _⟩ => ⟨S64x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S200000x128, .f32⟩
  | .hbm, ⟨9, _⟩ => ⟨S1x128, .f32⟩
  | .hbm, ⟨10, _⟩ => ⟨S200000x128, .f32⟩
  | .hbm, ⟨11, _⟩ => ⟨S200000x128, .f32⟩
  | .hbm, ⟨12, _⟩ => ⟨S200000x128, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S200000, .f32⟩
  | .hbm, ⟨17, _⟩ => ⟨S800000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .i1⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S_, .f32⟩
  | .hbm, ⟨26, _⟩ => ⟨S200000, .f32⟩
  | .hbm, ⟨27, _⟩ => ⟨S200000, .f32⟩
  | .hbm, ⟨28, _⟩ => ⟨S_, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S200000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S200000x128, .f32⟩
  | .hbm, ⟨44, _⟩ => ⟨S800000x1, .i32⟩
  | .hbm, ⟨45, _⟩ => ⟨S200000x128, .f32⟩
  | .hbm, ⟨46, _⟩ => ⟨S200000x128, .f32⟩
  | .hbm, ⟨47, _⟩ => ⟨S200000x128, .f32⟩
  | .hbm, ⟨48, _⟩ => ⟨S1x128x128, .f32⟩
  | .hbm, ⟨49, _⟩ => ⟨S128x128, .f32⟩
  | .hbm, ⟨50, _⟩ => ⟨S200000x128, .f32⟩
  | .hbm, ⟨51, _⟩ => ⟨S1x128x128, .f32⟩
  | .hbm, ⟨52, _⟩ => ⟨S128x128, .f32⟩
  | .hbm, ⟨53, _⟩ => ⟨S200000x128, .f32⟩
  | .hbm, ⟨54, _⟩ => ⟨S200000x128, .f32⟩
  | .hbm, ⟨55, _⟩ => ⟨S1x128, .f32⟩
  | .hbm, ⟨56, _⟩ => ⟨S128, .f32⟩
  | .hbm, ⟨57, _⟩ => ⟨S1x128, .f32⟩
  | .hbm, ⟨58, _⟩ => ⟨S200000x128, .f32⟩
  | .hbm, ⟨59, _⟩ => ⟨S200000x128, .f32⟩
  | .hbm, ⟨60, _⟩ => ⟨S_, .f32⟩
  | .hbm, ⟨61, _⟩ => ⟨S200000x128, .f32⟩
  | .hbm, ⟨62, _⟩ => ⟨S200000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S200000x128, .f32⟩
  | .hbm, ⟨74, _⟩ => ⟨S800000x1, .i32⟩
  | .hbm, ⟨75, _⟩ => ⟨S200000x128, .f32⟩
  | .hbm, ⟨76, _⟩ => ⟨S200000x128, .f32⟩
  | .hbm, ⟨77, _⟩ => ⟨S200000x128, .f32⟩
  | .hbm, ⟨78, _⟩ => ⟨S1x128x128, .f32⟩
  | .hbm, ⟨79, _⟩ => ⟨S128x128, .f32⟩
  | .hbm, ⟨80, _⟩ => ⟨S200000x128, .f32⟩
  | .hbm, ⟨81, _⟩ => ⟨S1x128x128, .f32⟩
  | .hbm, ⟨82, _⟩ => ⟨S128x128, .f32⟩
  | .hbm, ⟨83, _⟩ => ⟨S200000x128, .f32⟩
  | .hbm, ⟨84, _⟩ => ⟨S200000x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S200000x128, .f32⟩
  | .hbm, ⟨89, _⟩ => ⟨S200000x128, .f32⟩
  | .hbm, ⟨90, _⟩ => ⟨S_, .f32⟩
  | .hbm, ⟨91, _⟩ => ⟨S200000x128, .f32⟩
  | .hbm, ⟨92, _⟩ => ⟨S200000x128, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x128, .f32⟩
  | .hbm, ⟨102, _⟩ => ⟨S_, .f32⟩
  | .hbm, ⟨103, _⟩ => ⟨S200000x128, .f32⟩
  | .hbm, ⟨104, _⟩ => ⟨S800000x1, .i32⟩
  | .hbm, ⟨105, _⟩ => ⟨S200000x128, .f32⟩
  | .hbm, ⟨106, _⟩ => ⟨S200000x128, .f32⟩
  | .hbm, ⟨107, _⟩ => ⟨S200000x128, .f32⟩
  | .hbm, ⟨108, _⟩ => ⟨S1x128x128, .f32⟩
  | .hbm, ⟨109, _⟩ => ⟨S128x128, .f32⟩
  | .hbm, ⟨110, _⟩ => ⟨S200000x128, .f32⟩
  | .hbm, ⟨111, _⟩ => ⟨S1x128x128, .f32⟩
  | .hbm, ⟨112, _⟩ => ⟨S128x128, .f32⟩
  | .hbm, ⟨113, _⟩ => ⟨S200000x128, .f32⟩
  | .hbm, ⟨114, _⟩ => ⟨S200000x128, .f32⟩
  | .hbm, ⟨115, _⟩ => ⟨S1x128, .f32⟩
  | .hbm, ⟨116, _⟩ => ⟨S128, .f32⟩
  | .hbm, ⟨117, _⟩ => ⟨S1x128, .f32⟩
  | .hbm, ⟨118, _⟩ => ⟨S200000x128, .f32⟩
  | .hbm, ⟨119, _⟩ => ⟨S200000x128, .f32⟩
  | .hbm, ⟨120, _⟩ => ⟨S_, .f32⟩
  | .hbm, ⟨121, _⟩ => ⟨S200000x128, .f32⟩
  | .hbm, ⟨122, _⟩ => ⟨S200000x128, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call2_cst : Ref sig .tc := ⟨.hbm, 90, rfl⟩
abbrev main_call2_v0 : Ref sig .tc := ⟨.hbm, 91, rfl⟩
abbrev main_v66 : Ref sig .tc := ⟨.hbm, 92, rfl⟩
abbrev main_c_10 : Ref sig .tc := ⟨.hbm, 93, rfl⟩
abbrev main_v67 : Ref sig .tc := ⟨.hbm, 94, rfl⟩
abbrev main_v68 : Ref sig .tc := ⟨.hbm, 95, rfl⟩
abbrev main_c_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_call3_cst : Ref sig .tc := ⟨.hbm, 120, rfl⟩
abbrev main_call3_v0 : Ref sig .tc := ⟨.hbm, 121, rfl⟩
abbrev main_v91 : Ref sig .tc := ⟨.hbm, 122, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S200000_S200000x1_0 : S200000.BroadcastsInDim S200000x1 (![0] : Fin 1 → Fin S200000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S200000x64_S64x128_S200000x128_1_0_0_1_n_n_wf : DotDims.WF S200000x64 S64x128 S200000x128 [1] [0] [0] [1] [] []
  scatter_S200000_S800000x1_S800000_n_0_0_1_wf : ScatterDims.WF S200000 S800000x1 S800000 [] [0] [0] 1
  gather_S200000x128_S800000x1_S800000x128_1_0_n_n_0_1_1128_wf : GatherDims.WF S200000x128 S800000x1 S800000x128 [1] [0] [] [0] [] 1 ![1, 128]
  scatter_S200000x128_S800000x1_S800000x128_1_0_0_1_wf : ScatterDims.WF S200000x128 S800000x1 S800000x128 [1] [0] [0] 1
  dot_S200000x128_S128x128_S200000x128_1_0_0_1_n_n_wf : DotDims.WF S200000x128 S128x128 S200000x128 [1] [0] [0] [1] [] []

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.SageSpec.lean ====
/-
  The mean-aggregation graph network, entry by entry, on the extended reals.

  A node's first features are  tanh (Σ_k x(p,k)·w(k,q) + b(q)).  One layer sends features h, their sums hs over a node's
  in-neighbours and the reciprocal in-degree inv to
      max (Σ_k h(p,k)·ws(k,q) + Σ_k (hs(p,k)·inv(p))·wn(k,q) + b(q), 0).
  Both programs compute exactly these entries; they differ in how the rows are cut into blocks and in the shape the
  bias row and the degree column are carried in, and every such difference is a re-indexing.  The zero of the
  rectifier is kept as the f32 pattern of zero read at the ideal values, the same word on both sides.
-/
import Idealize.ShloMosaic.PureOps.Ideal.Laws
import Idealize.ShloMosaic.Lib.ValueIdx
import Idealize.ShloMosaic.Lib.ValueLayout
import Idealize.ShloMosaic.Lib.Pipeline.Value
import proofs.«115688_j25512105738358_1_alg».proof.Proof.LibPlainMatmul
import proofs.«115688_j25512105738358_1_alg».proof.Proof.LibKeepdims

noncomputable section

namespace Cert.Sage

open Idealize.ShloMosaic Idealize.ShloMosaic.ValueIdx

/-- An [a, b] matrix of extended reals. -/
abbrev Mat (a b : ℕ) : Type := (⟨2, ![a, b]⟩ : Shape).Idx → EReal
/-- A vector of a extended reals. -/
abbrev Vct (a : ℕ) : Type := (⟨1, ![a]⟩ : Shape).Idx → EReal

variable {n f d : ℕ}

/-- Entry (p, q) of the input layer. -/
def inAt (x : Mat n f) (w : Mat f d) (b : Vct d) (p : Fin n) (q : Fin d) : EReal :=
  Ideal.tanh ((∑ k : Fin f, x (ix2 p k) * w (ix2 k q)) + b (ix1 q))

/-- The input layer: tanh (x·w + b), the bias added to every row. -/
def inLayer (x : Mat n f) (w : Mat f d) (b : Vct d) : Mat n d := fun i => inAt x w b (i 0) (i 1)

theorem inLayer_apply (x : Mat n f) (w : Mat f d) (b : Vct d) (p : Fin n) (q : Fin d) :
    inLayer x w b (ix2 p q) = inAt x w b p q := rfl

/-- Entry (p, q) of one layer: own features through ws, the neighbours' mean through wn, bias, rectifier. -/
def combAt (h hs : Mat n d) (inv : Vct n) (ws wn : Mat d d) (b : Vct d) (p : Fin n) (q : Fin d) : EReal :=
  max ((∑ k : Fin d, h (ix2 p k) * ws (ix2 k q)) + (∑ k : Fin d, (hs (ix2 p k) * inv (ix1 p)) * wn (ix2 k q)) + b (ix1 q))
    (Ideal.ofBits .f32 0x00000000#32)

/-- One layer. -/
def combLayer (h hs : Mat n d) (inv : Vct n) (ws wn : Mat d d) (b : Vct d) : Mat n d :=
  fun i => combAt h hs inv ws wn b (i 0) (i 1)

theorem combLayer_apply (h hs : Mat n d) (inv : Vct n) (ws wn : Mat d d) (b : Vct d) (p : Fin n) (q : Fin d) :
    combLayer h hs inv ws wn b (ix2 p q) = combAt h hs inv ws wn b p q := rfl

end Cert.Sage

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.SageOps.lean ====
/-
  The two programs' operations for one layer, read at an entry.

  On the host a layer is a whole product  dot_general  plus a bias vector sent [d] → [1, d] → [n, d] by two
  broadcast_in_dim, and the degree vector sent [n] → [n, 1] → [n, d] the same way.  In a kernel block of m rows it is a
  matmul into the zero splat plus the bias row [1, d] broadcast down the block and the degree column [m, 1] broadcast
  across it.  Read at an entry (p, q) each is the same textbook expression, the contraction a sum over k.
-/
import proofs.«115688_j25512105738358_1_alg».proof.Proof.SageSpec
import proofs.«115688_j25512105738358_1_alg».proof.Proof.LibVecBcast

noncomputable section

namespace Cert.Sage

open Idealize.ShloMosaic Idealize.ShloMosaic.ValueIdx Cert.VecBcast

variable {n m f d : ℕ}

/-! ## The host's layers -/

/-- The host's input layer is the input layer. -/
theorem host_inLayer
    (wf : DotDims.WF (⟨2, ![n, f]⟩ : Shape) (⟨2, ![f, d]⟩ : Shape) (⟨2, ![n, d]⟩ : Shape) [1] [0] [0] [1] [] [])
    (h1 : (⟨1, ![d]⟩ : Shape).BroadcastsInDim ⟨2, ![1, d]⟩ ![1])
    (h2 : (⟨2, ![1, d]⟩ : Shape).BroadcastsInDim ⟨2, ![n, d]⟩ ![0, 1])
    (x : FVec Ideal ⟨2, ![n, f]⟩ .f32) (w : FVec Ideal ⟨2, ![f, d]⟩ .f32) (b : FVec Ideal ⟨1, ![d]⟩ .f32) :
    Host.tanh (addf (Host.dotGeneral (PlainMatmul.plain wf) none x w)
        (broadcastInDim ⟨2, ![n, d]⟩ ![0, 1] h2 (broadcastInDim ⟨2, ![1, d]⟩ ![1] h1 b)))
      = inLayer x w b := by
  funext i
  obtain ⟨p, q, rfl⟩ : ∃ (p : Fin n) (q : Fin d), i = ix2 p q := ⟨i 0, i 1, eq_ix2 i⟩
  show Ideal.tanh (FloatOps.dotGeneral (PlainMatmul.plain wf) none .single x w (ix2 p q)
    + broadcastInDim ⟨2, ![n, d]⟩ ![0, 1] h2 (broadcastInDim ⟨2, ![1, d]⟩ ![1] h1 b) (ix2 p q)) = _
  rw [PlainMatmul.dotGeneral_apply, rowVec_bcast_apply]
  rfl

/-- The host's layer — two products, the neighbours' sums scaled row by row first, the bias, the maximum with a
    zero matrix — is the layer. -/
theorem host_combLayer
    (wf : DotDims.WF (⟨2, ![n, d]⟩ : Shape) (⟨2, ![d, d]⟩ : Shape) (⟨2, ![n, d]⟩ : Shape) [1] [0] [0] [1] [] [])
    (hi1 : (⟨1, ![n]⟩ : Shape).BroadcastsInDim ⟨2, ![n, 1]⟩ ![0])
    (hi2 : (⟨2, ![n, 1]⟩ : Shape).BroadcastsInDim ⟨2, ![n, d]⟩ ![0, 1])
    (hb1 : (⟨1, ![d]⟩ : Shape).BroadcastsInDim ⟨2, ![1, d]⟩ ![1])
    (hb2 : (⟨2, ![1, d]⟩ : Shape).BroadcastsInDim ⟨2, ![n, d]⟩ ![0, 1])
    (hz : (⟨0, ![]⟩ : Shape).BroadcastsInDim ⟨2, ![n, d]⟩ ![])
    (h hs : FVec Ideal ⟨2, ![n, d]⟩ .f32) (inv : FVec Ideal ⟨1, ![n]⟩ .f32) (ws wn : FVec Ideal ⟨2, ![d, d]⟩ .f32)
    (b : FVec Ideal ⟨1, ![d]⟩ .f32) :
    maximumf (addf (addf (Host.dotGeneral (PlainMatmul.plain wf) none h ws)
          (Host.dotGeneral (PlainMatmul.plain wf) none
            (mulf hs (broadcastInDim ⟨2, ![n, d]⟩ ![0, 1] hi2 (broadcastInDim ⟨2, ![n, 1]⟩ ![0] hi1 inv))) wn))
        (broadcastInDim ⟨2, ![n, d]⟩ ![0, 1] hb2 (broadcastInDim ⟨2, ![1, d]⟩ ![1] hb1 b)))
      (broadcastInDim ⟨2, ![n, d]⟩ ![] hz (constant (F := Ideal) ⟨0, ![]⟩ .f32 0x00000000#32))
      = combLayer h hs inv ws wn b := by
  funext i
  obtain ⟨p, q, rfl⟩ : ∃ (p : Fin n) (q : Fin d), i = ix2 p q := ⟨i 0, i 1, eq_ix2 i⟩
  show max (FloatOps.dotGeneral (PlainMatmul.plain wf) none .single h ws (ix2 p q)
      + FloatOps.dotGeneral (PlainMatmul.plain wf) none .single
          (mulf hs (broadcastInDim ⟨2, ![n, d]⟩ ![0, 1] hi2 (broadcastInDim ⟨2, ![n, 1]⟩ ![0] hi1 inv))) wn (ix2 p q)
      + broadcastInDim ⟨2, ![n, d]⟩ ![0, 1] hb2 (broadcastInDim ⟨2, ![1, d]⟩ ![1] hb1 b) (ix2 p q))
    (Ideal.ofBits .f32 0x00000000#32) = _
  rw [PlainMatmul.dotGeneral_apply, PlainMatmul.dotGeneral_apply, rowVec_bcast_apply]
  have e : ∀ k : Fin d, mulf hs (broadcastInDim ⟨2, ![n, d]⟩ ![0, 1] hi2 (broadcastInDim ⟨2, ![n, 1]⟩ ![0] hi1 inv)) (ix2 p k)
      = hs (ix2 p k) * inv (ix1 p) := fun k => by
    rw [mulf_apply, colVec_bcast_apply]
  simp only [e]
  rfl

/-! ## A kernel block's layers -/

/-- Entry (p, q) of the input layer's block: the block's rows of x against the whole w, the bias row added. -/
theorem block_in_apply
    (wf : DotDims.WF (⟨2, ![m, f]⟩ : Shape) (⟨2, ![f, d]⟩ : Shape) (⟨2, ![m, d]⟩ : Shape) [1] [0] [0] [1] [] [])
    (hl : FTy.bf16.bits < FTy.f32.bits)
    (hC : (⟨2, ![1, d]⟩ : Shape).ShapeCasts ⟨2, ![1, d]⟩) (hB : (⟨2, ![1, d]⟩ : Shape).Broadcasts ⟨2, ![m, d]⟩)
    (x0 : FVec Ideal ⟨2, ![m, f]⟩ .f32) (x1 : FVec Ideal ⟨2, ![f, d]⟩ .f32) (x2 : FVec Ideal ⟨2, ![1, d]⟩ .f32)
    (p : Fin m) (q : Fin d) :
    tanh (addf (matmul (PlainMatmul.plain wf) none (truncf .bf16 x0 hl) (truncf .bf16 x1 hl)
        (constant ⟨2, ![m, d]⟩ .f32 0x00000000#32))
      (broadcastTo ⟨2, ![m, d]⟩ (shapeCast ⟨2, ![1, d]⟩ x2 hC) hB)) (ix2 p q)
      = Ideal.tanh ((∑ k : Fin f, x0 (ix2 p k) * x1 (ix2 k q)) + x2 (ix2 (0 : Fin 1) q)) := by
  show Ideal.tanh (FloatOps.matmul (PlainMatmul.plain wf) none (truncf .bf16 x0 hl) (truncf .bf16 x1 hl)
      (constant ⟨2, ![m, d]⟩ .f32 0x00000000#32) (ix2 p q)
    + broadcastTo ⟨2, ![m, d]⟩ (shapeCast ⟨2, ![1, d]⟩ x2 hC) hB (ix2 p q)) = _
  rw [PlainMatmul.matmul_zero_apply, broadcastTo_1b_ab_apply, shapeCast_self]
  rfl

/-- Entry (p, q) of a layer's block. -/
theorem block_comb_apply
    (wf : DotDims.WF (⟨2, ![m, d]⟩ : Shape) (⟨2, ![d, d]⟩ : Shape) (⟨2, ![m, d]⟩ : Shape) [1] [0] [0] [1] [] [])
    (hl : FTy.bf16.bits < FTy.f32.bits)
    (c0 : (⟨2, ![m, d]⟩ : Shape).ShapeCasts ⟨2, ![m, d]⟩) (c2 : (⟨2, ![m, 1]⟩ : Shape).ShapeCasts ⟨2, ![m, 1]⟩)
    (c3 : (⟨2, ![d, d]⟩ : Shape).ShapeCasts ⟨2, ![d, d]⟩) (c5 : (⟨2, ![1, d]⟩ : Shape).ShapeCasts ⟨2, ![1, d]⟩)
    (b2 : (⟨2, ![m, 1]⟩ : Shape).Broadcasts ⟨2, ![m, d]⟩) (b5 : (⟨2, ![1, d]⟩ : Shape).Broadcasts ⟨2, ![m, d]⟩)
    (x0 x1 : FVec Ideal ⟨2, ![m, d]⟩ .f32) (x2 : FVec Ideal ⟨2, ![m, 1]⟩ .f32) (x3 x4 : FVec Ideal ⟨2, ![d, d]⟩ .f32)
    (x5 : FVec Ideal ⟨2, ![1, d]⟩ .f32) (p : Fin m) (q : Fin d) :
    maximumf (addf (addf
          (matmul (PlainMatmul.plain wf) none (truncf .bf16 (shapeCast ⟨2, ![m, d]⟩ x0 c0) hl)
            (truncf .bf16 (shapeCast ⟨2, ![d, d]⟩ x3 c3) hl) (constant ⟨2, ![m, d]⟩ .f32 0x00000000#32))
          (matmul (PlainMatmul.plain wf) none
            (truncf .bf16 (mulf (shapeCast ⟨2, ![m, d]⟩ x1 c0)
              (broadcastTo ⟨2, ![m, d]⟩ (shapeCast ⟨2, ![m, 1]⟩ x2 c2) b2)) hl)
            (truncf .bf16 (shapeCast ⟨2, ![d, d]⟩ x4 c3) hl) (constant ⟨2, ![m, d]⟩ .f32 0x00000000#32)))
        (broadcastTo ⟨2, ![m, d]⟩ (shapeCast ⟨2, ![1, d]⟩ x5 c5) b5))
      (broadcast ⟨2, ![m, d]⟩ (Scalar.ofBits (F := Ideal) .f32 0x00000000#32)) (ix2 p q)
      = max ((∑ k : Fin d, x0 (ix2 p k) * x3 (ix2 k q))
          + (∑ k : Fin d, (x1 (ix2 p k) * x2 (ix2 p (0 : Fin 1))) * x4 (ix2 k q)) + x5 (ix2 (0 : Fin 1) q))
        (Ideal.ofBits .f32 0x00000000#32) := by
  show max (FloatOps.matmul (PlainMatmul.plain wf) none (truncf .bf16 (shapeCast ⟨2, ![m, d]⟩ x0 c0) hl)
        (truncf .bf16 (shapeCast ⟨2, ![d, d]⟩ x3 c3) hl) (constant ⟨2, ![m, d]⟩ .f32 0x00000000#32) (ix2 p q)
      + FloatOps.matmul (PlainMatmul.plain wf) none
          (truncf .bf16 (mulf (shapeCast ⟨2, ![m, d]⟩ x1 c0)
            (broadcastTo ⟨2, ![m, d]⟩ (shapeCast ⟨2, ![m, 1]⟩ x2 c2) b2)) hl)
          (truncf .bf16 (shapeCast ⟨2, ![d, d]⟩ x4 c3) hl) (constant ⟨2, ![m, d]⟩ .f32 0x00000000#32) (ix2 p q)
      + broadcastTo ⟨2, ![m, d]⟩ (shapeCast ⟨2, ![1, d]⟩ x5 c5) b5 (ix2 p q))
    (Ideal.ofBits .f32 0x00000000#32) = _
  rw [PlainMatmul.matmul_zero_apply, PlainMatmul.matmul_zero_apply, broadcastTo_1b_ab_apply]
  simp only [shapeCast_self, truncf_apply, mulf_apply, Keepdims.broadcastTo_a1_ab_apply]

end Cert.Sage

end
-- ==== Proof.LibRowBlocks.lean ====
/-
  Consecutive row blocks of a matrix of extended reals, and one-row / one-column matrices read as vectors.

  A kernel gridded over the rows of an [n, c] array sees m consecutive rows at a time: block t holds rows
  t·m … t·m + m − 1 (`rowsAt`).  An index of the whole array whose row is t·m + p and whose column is q is the block's
  index (p, q) moved to its place (`idx_of_block`): the step between a function computed on one block and the same function
  of the whole arrays, when an entry depends on its own row only.  A bias carried as a [1, d] row and a per-row scalar carried
  as an [n, 1] column are read back as vectors by `rowOf` and `colOf`.
-/
import Idealize.ShloMosaic.PureOps.Ideal
import Idealize.ShloMosaic.Lib.ValueIdx

noncomputable section

namespace Cert.RowBlocks

open Idealize.ShloMosaic Idealize.ShloMosaic.ValueIdx

variable {n m d c : ℕ}

/-- Rows t·m … t·m + m − 1 of an [n, c] matrix. -/
def rowsAt (m t : ℕ) (h : t * m + m ≤ n) (A : (⟨2, ![n, c]⟩ : Shape).Idx → EReal) : (⟨2, ![m, c]⟩ : Shape).Idx → EReal :=
  fun y => A (ix2 ⟨t * m + (y 0).val, by have := idx2_lt0 y; omega⟩ (y 1))

theorem rowsAt_apply (t : ℕ) (h : t * m + m ≤ n) (A : (⟨2, ![n, c]⟩ : Shape).Idx → EReal) (p : Fin m) (k : Fin c) :
    rowsAt m t h A (ix2 p k) = A (ix2 ⟨t * m + p.val, by have := p.isLt; omega⟩ k) := rfl

/-- The one row of a [1, d] matrix as a vector. -/
def rowOf (B : (⟨2, ![1, d]⟩ : Shape).Idx → EReal) : (⟨1, ![d]⟩ : Shape).Idx → EReal := fun j => B (ix2 (0 : Fin 1) (j 0))
/-- The one column of an [n, 1] matrix as a vector. -/
def colOf (C : (⟨2, ![n, 1]⟩ : Shape).Idx → EReal) : (⟨1, ![n]⟩ : Shape).Idx → EReal := fun j => C (ix2 (j 0) (0 : Fin 1))

theorem rowOf_apply (B : (⟨2, ![1, d]⟩ : Shape).Idx → EReal) (q : Fin d) : rowOf B (ix1 q) = B (ix2 (0 : Fin 1) q) := rfl
theorem colOf_apply (C : (⟨2, ![n, 1]⟩ : Shape).Idx → EReal) (p : Fin n) : colOf C (ix1 p) = C (ix2 p (0 : Fin 1)) := rfl

/-- An index of the whole matrix that sits in block t at the block's index (p, q). -/
theorem idx_of_block (t : ℕ) (h : t * m + m ≤ n) (p : Fin m) (q : Fin d) (i : (⟨2, ![n, d]⟩ : Shape).Idx)
    (h0 : (i 0).val = t * m + p.val) (h1 : (i 1).val = q.val) :
    i = ix2 ⟨t * m + p.val, by have := p.isLt; omega⟩ q :=
  funext fun a => Fin.ext (by
    match a with
    | ⟨0, _⟩ => exact h0
    | ⟨1, _⟩ => exact h1)

end Cert.RowBlocks

end
-- ==== Proof.SageBlocks.lean ====
/-
  A layer computed on one block of rows.

  A kernel sees m consecutive rows of each per-node matrix at a time: block t holds rows t·m … t·m + m − 1.  An entry of
  a layer depends on row p of the per-node operands only, so the layer computed from block t's rows is rows
  t·m … t·m + m − 1 of the layer computed from the whole matrices.
-/
import proofs.«115688_j25512105738358_1_alg».proof.Proof.SageOps
import proofs.«115688_j25512105738358_1_alg».proof.Proof.LibRowBlocks

noncomputable section

namespace Cert.Sage

open Idealize.ShloMosaic Idealize.ShloMosaic.ValueIdx

variable {n m f d c : ℕ}

export Cert.RowBlocks (rowsAt rowsAt_apply rowOf colOf rowOf_apply colOf_apply idx_of_block)

/-- Block t of the input layer. -/
theorem inLayer_block (t : ℕ) (h : t * m + m ≤ n) (X : Mat n f) (W : Mat f d) (B : Mat 1 d) (G : Mat m d)
    (hG : ∀ (p : Fin m) (q : Fin d),
      G (ix2 p q) = Ideal.tanh ((∑ k : Fin f, rowsAt m t h X (ix2 p k) * W (ix2 k q)) + B (ix2 (0 : Fin 1) q)))
    (y : (⟨2, ![m, d]⟩ : Shape).Idx) (i : (⟨2, ![n, d]⟩ : Shape).Idx)
    (h0 : (i 0).val = t * m + (y 0).val) (h1 : (i 1).val = (y 1).val) :
    G y = inLayer X W (rowOf B) i := by
  obtain ⟨p, q, rfl⟩ : ∃ (p : Fin m) (q : Fin d), y = ix2 p q := ⟨y 0, y 1, eq_ix2 y⟩
  rw [idx_of_block t h p q i h0 h1, hG]
  rfl

/-- Block t of a layer. -/
theorem combLayer_block (t : ℕ) (h : t * m + m ≤ n) (H HS : Mat n d) (INV : Mat n 1) (WS WN : Mat d d) (B : Mat 1 d)
    (G : Mat m d)
    (hG : ∀ (p : Fin m) (q : Fin d),
      G (ix2 p q) = max ((∑ k : Fin d, rowsAt m t h H (ix2 p k) * WS (ix2 k q))
          + (∑ k : Fin d, (rowsAt m t h HS (ix2 p k) * rowsAt m t h INV (ix2 p (0 : Fin 1))) * WN (ix2 k q))
          + B (ix2 (0 : Fin 1) q)) (Ideal.ofBits .f32 0x00000000#32))
    (y : (⟨2, ![m, d]⟩ : Shape).Idx) (i : (⟨2, ![n, d]⟩ : Shape).Idx)
    (h0 : (i 0).val = t * m + (y 0).val) (h1 : (i 1).val = (y 1).val) :
    G y = combLayer H HS (colOf INV) WS WN (rowOf B) i := by
  obtain ⟨p, q, rfl⟩ : ∃ (p : Fin m) (q : Fin d), y = ix2 p q := ⟨y 0, y 1, eq_ix2 y⟩
  rw [idx_of_block t h p q i h0 h1, hG]
  rfl

end Cert.Sage

end
-- ==== Proof.KIn.lean ====
/-
  The input layer's pallas_call, read as one array.

  Grid point t of the 50 works on rows 4000·t … 4000·t + 3999: it reads that block of x, the whole weight matrix and
  the whole bias row, and writes the same block of the result.  What it writes is tanh (x·w + b) on those rows, so
  after the last point the result array is the input layer of the arrays the call was entered with.
-/
import proofs.«115688_j25512105738358_1_alg».proof.Proof.Gen.KernelIdeal.Frame
import proofs.«115688_j25512105738358_1_alg».proof.Proof.SageBlocks

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Idealize.ShloMosaic.Pipeline Cert.Sage

variable (V : (c : Dev nD) → (b : Ref sig .tc) → Buf (Elt Ideal) ((c : Thread nD τ).loc b))

theorem hz2 : (![0, 0] : Fin 2 → Nat) = fun _ => 0 := funext fun a => by fin_cases a <;> rfl

/-- Entry (p, q) of what the body computes from its three loads. -/
theorem pay0_apply (x0 : Vec Ideal S4000x64 .f32) (x1 : Vec Ideal S64x128 .f32) (x2 : Vec Ideal S1x128 .f32)
    (p : Fin 4000) (q : Fin 128) :
    k0_pay1 (F := Ideal) x0 x1 x2 (ix2 p q)
      = Ideal.tanh ((∑ k : Fin 64, x0 (ix2 p k) * x1 (ix2 k q)) + x2 (ix2 (0 : Fin 1) q)) :=
  block_in_apply dot_S4000x64_S64x128_S4000x128_1_0_0_1_n_n_wf bitsLt_bf16_f32 shapeCasts_S1x128_S1x128
    broadcasts_S1x128_S4000x128 x0 x1 x2 p q

/-- The block indices over the grid: x and the result move down the rows with the point, the weights and the bias
    stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt50_0 (t : Fin cfg0.N) : t.val * 4000 + 4000 ≤ 200000 := by
  have h : t.val < 50 := lt_of_lt_of_eq t.isLt N_0
  omega

/-- Window 0's block at point t is rows 4000·t … of x. -/
theorem iblk0_0 (c : Dev nD) (t : Fin cfg0.N) :
    iblk0 V c 0 t = rowsAt 4000 t.val (lt50_0 t) (V c main_arg0) := by
  obtain ⟨e0, e1, -⟩ := idx0 t
  funext y
  show V c main_arg0 (((cfg0.win 0).blk t).view.emb y) = V c main_arg0 (ix2 ⟨t.val * 4000 + (y 0).val, _⟩ (y 1))
  refine congrArg (V c main_arg0) (funext fun a => Fin.ext ?_)
  match a with
  | ⟨0, _⟩ => show win0_0.index t (0 : Fin 2) * 4000 + 1 * (y 0).val = t.val * 4000 + (y 0).val; rw [e0]; omega
  | ⟨1, _⟩ => show win0_0.index t (1 : Fin 2) * 64 + 1 * (y 1).val = (y 1).val; rw [e1]; omega

/-- Window 1's block is the whole weight matrix. -/
theorem iblk0_1 (c : Dev nD) (t : Fin cfg0.N) : iblk0 V c 1 t = V c main_arg3 := by
  obtain ⟨-, -, e0, e1, -⟩ := idx0 t
  funext y
  show V c main_arg3 (((cfg0.win 1).blk t).view.emb y) = V c main_arg3 y
  refine congrArg (V c main_arg3) (funext fun a => Fin.ext ?_)
  match a with
  | ⟨0, _⟩ => show win0_1.index t (0 : Fin 2) * 64 + 1 * (y 0).val = (y 0).val; rw [e0]; omega
  | ⟨1, _⟩ => show win0_1.index t (1 : Fin 2) * 128 + 1 * (y 1).val = (y 1).val; rw [e1]; omega

/-- Window 2's block is the whole bias row. -/
theorem iblk0_2 (c : Dev nD) (t : Fin cfg0.N) : iblk0 V c 2 t = V c main_v12 := by
  obtain ⟨-, -, -, -, e0, e1, -⟩ := idx0 t
  funext y
  show V c main_v12 (((cfg0.win 2).blk t).view.emb y) = V c main_v12 y
  refine congrArg (V c main_v12) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point t writes back is block t of the input layer of the arrays as the call finds them. -/
theorem flushed0 (c : Dev nD) (t : Fin cfg0.N) :
    (dat0 V c).flushed 3 t
      = ((cfg0.win 3).blk t).view.read (Elt Ideal) (inLayer (V c main_arg0) (V c main_arg3) (rowOf (V c main_v12))) := by
  show (cfg0.win 3).cut (grid0.coords t) ((dat0 V c).after 3 t) = _
  rw [after0_3]
  unfold out0_3
  rw [View.canon_unit_zero hz2]
  simp only [View.ld_unit_zero (S := S4000x64) hz2, View.ld_unit_zero (S := S64x128) hz2,
    View.ld_unit_zero (S := S1x128) hz2]
  rw [iblk0_0 V c t, iblk0_1 V c t, iblk0_2 V c t]
  obtain ⟨-, -, -, -, -, -, e0, e1⟩ := idx0 t
  funext j
  show k0_pay1 (F := Ideal) (rowsAt 4000 t.val (lt50_0 t) (V c main_arg0)) (V c main_arg3) (V c main_v12) j
    = inLayer (V c main_arg0) (V c main_arg3) (rowOf (V c main_v12)) (((cfg0.win 3).blk t).view.emb j)
  refine inLayer_block t.val (lt50_0 t) (V c main_arg0) (V c main_arg3) (V c main_v12) _
    (fun p q => pay0_apply _ _ _ p q) j _ ?_ ?_
  · show win0_3.index t (0 : Fin 2) * 4000 + 1 * (j 0).val = t.val * 4000 + (j 0).val; rw [e0]; omega
  · show win0_3.index t (1 : Fin 2) * 128 + 1 * (j 1).val = (j 1).val; rw [e1]; omega

/-- An index of the result array is in point t's block iff each coordinate is in the block's range on its axis. -/
theorem mem_blk0 (t : Fin cfg0.N) (i : S200000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v13).slice (win0_3.rect t)).set ↔ _
  rw [View.set_slice_whole, Rect.mem_set_unit]
  exact Iff.rfl

/-- Every row is in the block of the point its number divided by 4000 names. -/
theorem cover0 (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 50 := N_0
  let t : Fin cfg0.N := ⟨(i 0).val / 4000, by rw [hN]; omega⟩
  obtain ⟨-, -, -, -, -, -, e0, e1⟩ := idx0 t
  have ht : t.val = (i 0).val / 4000 := rfl
  refine ⟨t, flush0_3 t, ?_⟩
  rw [mem_blk0]
  intro a
  match a with
  | ⟨0, _⟩ =>
    show win0_3.index t (0 : Fin 2) * 4000 ≤ (i 0).val ∧ (i 0).val < win0_3.index t (0 : Fin 2) * 4000 + 4000
    rw [e0, ht]; omega
  | ⟨1, _⟩ =>
    show win0_3.index t (1 : Fin 2) * 128 ≤ (i 1).val ∧ (i 1).val < win0_3.index t (1 : Fin 2) * 128 + 128
    rw [e1]; omega

/-- THE RESULT ARRAY of the call: the input layer of the arrays as the call finds them. -/
theorem final0 (c : Dev nD) :
    (dat0 V c).arrAt 3 cfg0.N = inLayer (V c main_arg0) (V c main_arg3) (rowOf (V c main_v12)) :=
  (dat0 V c).arrAt_eq_of_cover 3 _ (fun t _ => flushed0 V c t) cover0

end Cert.KernelIdeal.Layers

end
-- ==== Proof.KLayer1.lean ====
/-
  Layer 1's pallas_call, read as one array.

  Grid point t of the 50 works on rows 4000·t … 4000·t + 3999: it reads that block of the features, of the neighbour
  sums and of the reciprocal-degree column, the two whole weight matrices and the whole bias row, and writes the same
  block of the result.  What it writes is the layer on those rows, so after the last point the result array is the
  layer of the arrays the call was entered with.
-/
import proofs.«115688_j25512105738358_1_alg».proof.Proof.Gen.KernelIdeal.Frame
import proofs.«115688_j25512105738358_1_alg».proof.Proof.SageBlocks

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Idealize.ShloMosaic.Pipeline Cert.Sage

variable (V : (c : Dev nD) → (b : Ref sig .tc) → Buf (Elt Ideal) ((c : Thread nD τ).loc b))

theorem hz2_1 : (![0, 0] : Fin 2 → Nat) = fun _ => 0 := funext fun a => by fin_cases a <;> rfl

/-- Entry (p, q) of what the body computes from its six loads. -/
theorem pay1_apply (x0 x1 : Vec Ideal S4000x128 .f32) (x2 : Vec Ideal S4000x1 .f32) (x3 x4 : Vec Ideal S128x128 .f32)
    (x5 : Vec Ideal S1x128 .f32) (p : Fin 4000) (q : Fin 128) :
    k1_pay1 (F := Ideal) x0 x1 x2 x3 x4 x5 (ix2 p q)
      = max ((∑ k : Fin 128, x0 (ix2 p k) * x3 (ix2 k q))
          + (∑ k : Fin 128, (x1 (ix2 p k) * x2 (ix2 p (0 : Fin 1))) * x4 (ix2 k q)) + x5 (ix2 (0 : Fin 1) q))
        (Ideal.ofBits .f32 0x00000000#32) :=
  block_comb_apply dot_S4000x128_S128x128_S4000x128_1_0_0_1_n_n_wf bitsLt_bf16_f32 shapeCasts_S4000x128_S4000x128
    shapeCasts_S4000x1_S4000x1 shapeCasts_S128x128_S128x128 shapeCasts_S1x128_S1x128 broadcasts_S4000x1_S4000x128
    broadcasts_S1x128_S4000x128 x0 x1 x2 x3 x4 x5 p q

/-- The block indices over the grid: the three per-node operands and the result move down the rows with the point,
    the weights and the bias stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt50_1 (t : Fin cfg1.N) : t.val * 4000 + 4000 ≤ 200000 := by
  have h : t.val < 50 := lt_of_lt_of_eq t.isLt N_1
  omega

/-- Window 0's block at point t is rows 4000·t … of the features. -/
theorem iblk1_0 (c : Dev nD) (t : Fin cfg1.N) :
    iblk1 V c 0 t = rowsAt 4000 t.val (lt50_1 t) (V c main_v13) := by
  obtain ⟨e0, e1, -⟩ := idx1 t
  funext y
  show V c main_v13 (((cfg1.win 0).blk t).view.emb y) = V c main_v13 (ix2 ⟨t.val * 4000 + (y 0).val, _⟩ (y 1))
  refine congrArg (V c main_v13) (funext fun a => Fin.ext ?_)
  match a with
  | ⟨0, _⟩ => show win1_0.index t (0 : Fin 2) * 4000 + 1 * (y 0).val = t.val * 4000 + (y 0).val; rw [e0]; omega
  | ⟨1, _⟩ => show win1_0.index t (1 : Fin 2) * 128 + 1 * (y 1).val = (y 1).val; rw [e1]; omega

/-- Window 1's block at point t is rows 4000·t … of the neighbour sums. -/
theorem iblk1_1 (c : Dev nD) (t : Fin cfg1.N) :
    iblk1 V c 1 t = rowsAt 4000 t.val (lt50_1 t) (V c main_v23) := by
  obtain ⟨-, -, e0, e1, -⟩ := idx1 t
  funext y
  show V c main_v23 (((cfg1.win 1).blk t).view.emb y) = V c main_v23 (ix2 ⟨t.val * 4000 + (y 0).val, _⟩ (y 1))
  refine congrArg (V c main_v23) (funext fun a => Fin.ext ?_)
  match a with
  | ⟨0, _⟩ => show win1_1.index t (0 : Fin 2) * 4000 + 1 * (y 0).val = t.val * 4000 + (y 0).val; rw [e0]; omega
  | ⟨1, _⟩ => show win1_1.index t (1 : Fin 2) * 128 + 1 * (y 1).val = (y 1).val; rw [e1]; omega

/-- Window 2's block at point t is rows 4000·t … of the reciprocal-degree column. -/
theorem iblk1_2 (c : Dev nD) (t : Fin cfg1.N) :
    iblk1 V c 2 t = rowsAt 4000 t.val (lt50_1 t) (V c main_v11) := by
  obtain ⟨-, -, -, -, e0, e1, -⟩ := idx1 t
  funext y
  show V c main_v11 (((cfg1.win 2).blk t).view.emb y) = V c main_v11 (ix2 ⟨t.val * 4000 + (y 0).val, _⟩ (y 1))
  refine congrArg (V c main_v11) (funext fun a => Fin.ext ?_)
  match a with
  | ⟨0, _⟩ => show win1_2.index t (0 : Fin 2) * 4000 + 1 * (y 0).val = t.val * 4000 + (y 0).val; rw [e0]; omega
  | ⟨1, _⟩ => show win1_2.index t (1 : Fin 2) * 1 + 1 * (y 1).val = (y 1).val; rw [e1]; omega

/-- Window 3's block is the whole first weight matrix. -/
theorem iblk1_3 (c : Dev nD) (t : Fin cfg1.N) : iblk1 V c 3 t = V c main_v25 := by
  obtain ⟨-, -, -, -, -, -, e0, e1, -⟩ := idx1 t
  funext y
  show V c main_v25 (((cfg1.win 3).blk t).view.emb y) = V c main_v25 y
  refine congrArg (V c main_v25) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- Window 4's block is the whole second weight matrix. -/
theorem iblk1_4 (c : Dev nD) (t : Fin cfg1.N) : iblk1 V c 4 t = V c main_v27 := by
  obtain ⟨-, -, -, -, -, -, -, -, e0, e1, -⟩ := idx1 t
  funext y
  show V c main_v27 (((cfg1.win 4).blk t).view.emb y) = V c main_v27 y
  refine congrArg (V c main_v27) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5's block is the whole bias row. -/
theorem iblk1_5 (c : Dev nD) (t : Fin cfg1.N) : iblk1 V c 5 t = V c main_v30 := by
  obtain ⟨-, -, -, -, -, -, -, -, -, -, e0, e1, -⟩ := idx1 t
  funext y
  show V c main_v30 (((cfg1.win 5).blk t).view.emb y) = V c main_v30 y
  refine congrArg (V c main_v30) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- What point t writes back is block t of the layer of the arrays as the call finds them. -/
theorem flushed1 (c : Dev nD) (t : Fin cfg1.N) :
    (dat1 V c).flushed 6 t
      = ((cfg1.win 6).blk t).view.read (Elt Ideal)
          (combLayer (V c main_v13) (V c main_v23) (colOf (V c main_v11)) (V c main_v25) (V c main_v27)
            (rowOf (V c main_v30))) := by
  show (cfg1.win 6).cut (grid1.coords t) ((dat1 V c).after 6 t) = _
  rw [after1_6]
  unfold out1_6
  rw [View.canon_unit_zero hz2_1]
  simp only [View.ld_unit_zero (S := S4000x128) hz2_1, View.ld_unit_zero (S := S4000x1) hz2_1,
    View.ld_unit_zero (S := S128x128) hz2_1, View.ld_unit_zero (S := S1x128) hz2_1]
  rw [iblk1_0 V c t, iblk1_1 V c t, iblk1_2 V c t, iblk1_3 V c t, iblk1_4 V c t, iblk1_5 V c t]
  obtain ⟨-, -, -, -, -, -, -, -, -, -, -, -, e0, e1⟩ := idx1 t
  funext j
  show k1_pay1 (F := Ideal) (rowsAt 4000 t.val (lt50_1 t) (V c main_v13)) (rowsAt 4000 t.val (lt50_1 t) (V c main_v23))
      (rowsAt 4000 t.val (lt50_1 t) (V c main_v11)) (V c main_v25) (V c main_v27) (V c main_v30) j
    = combLayer (V c main_v13) (V c main_v23) (colOf (V c main_v11)) (V c main_v25) (V c main_v27)
        (rowOf (V c main_v30)) (((cfg1.win 6).blk t).view.emb j)
  refine combLayer_block t.val (lt50_1 t) (V c main_v13) (V c main_v23) (V c main_v11) (V c main_v25)
    (V c main_v27) (V c main_v30) _ (fun p q => pay1_apply _ _ _ _ _ _ p q) j _ ?_ ?_
  · show win1_6.index t (0 : Fin 2) * 4000 + 1 * (j 0).val = t.val * 4000 + (j 0).val; rw [e0]; omega
  · show win1_6.index t (1 : Fin 2) * 128 + 1 * (j 1).val = (j 1).val; rw [e1]; omega

/-- An index of the result array is in point t's block iff each coordinate is in the block's range on its axis. -/
theorem mem_blk1 (t : Fin cfg1.N) (i : S200000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v31).slice (win1_6.rect t)).set ↔ _
  rw [View.set_slice_whole, Rect.mem_set_unit]
  exact Iff.rfl

/-- Every row is in the block of the point its number divided by 4000 names. -/
theorem cover1 (i : S200000x128.Idx) :
    ∃ t : Fin cfg1.N, (cfg1.win 6).flush t = true ∧ i ∈ ((cfg1.win 6).blk t).view.set := by
  have hi0 : (i 0).val < 200000 := (i 0).isLt
  have hi1 : (i 1).val < 128 := (i 1).isLt
  have hN : cfg1.N = 50 := N_1
  let t : Fin cfg1.N := ⟨(i 0).val / 4000, by rw [hN]; omega⟩
  obtain ⟨-, -, -, -, -, -, -, -, -, -, -, -, e0, e1⟩ := idx1 t
  have ht : t.val = (i 0).val / 4000 := rfl
  refine ⟨t, flush1_6 t, ?_⟩
  rw [mem_blk1]
  intro a
  match a with
  | ⟨0, _⟩ =>
    show win1_6.index t (0 : Fin 2) * 4000 ≤ (i 0).val ∧ (i 0).val < win1_6.index t (0 : Fin 2) * 4000 + 4000
    rw [e0, ht]; omega
  | ⟨1, _⟩ =>
    show win1_6.index t (1 : Fin 2) * 128 ≤ (i 1).val ∧ (i 1).val < win1_6.index t (1 : Fin 2) * 128 + 128
    rw [e1]; omega

/-- THE RESULT ARRAY of the call: the layer of the arrays as the call finds them. -/
theorem final1 (c : Dev nD) :
    (dat1 V c).arrAt 6 cfg1.N
      = combLayer (V c main_v13) (V c main_v23) (colOf (V c main_v11)) (V c main_v25) (V c main_v27)
          (rowOf (V c main_v30)) :=
  (dat1 V c).arrAt_eq_of_cover 6 _ (fun t _ => flushed1 V c t) cover1

end Cert.KernelIdeal.Layers

end
-- ==== Proof.KLayer2.lean ====
/-
  Layer 2's pallas_call, read as one array.

  Grid point t of the 50 works on rows 4000·t … 4000·t + 3999: it reads that block of the features, of the neighbour
  sums and of the reciprocal-degree column, the two whole weight matrices and the whole bias row, and writes the same
  block of the result.  What it writes is the layer on those rows, so after the last point the result array is the
  layer of the arrays the call was entered with.
-/
import proofs.«115688_j25512105738358_1_alg».proof.Proof.Gen.KernelIdeal.Frame
import proofs.«115688_j25512105738358_1_alg».proof.Proof.SageBlocks

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Idealize.ShloMosaic.Pipeline Cert.Sage

variable (V : (c : Dev nD) → (b : Ref sig .tc) → Buf (Elt Ideal) ((c : Thread nD τ).loc b))

theorem hz2_2 : (![0, 0] : Fin 2 → Nat) = fun _ => 0 := funext fun a => by fin_cases a <;> rfl

/-- Entry (p, q) of what the body computes from its six loads. -/
theorem pay2_apply (x0 x1 : Vec Ideal S4000x128 .f32) (x2 : Vec Ideal S4000x1 .f32) (x3 x4 : Vec Ideal S128x128 .f32)
    (x5 : Vec Ideal S1x128 .f32) (p : Fin 4000) (q : Fin 128) :
    k2_pay1 (F := Ideal) x0 x1 x2 x3 x4 x5 (ix2 p q)
      = max ((∑ k : Fin 128, x0 (ix2 p k) * x3 (ix2 k q))
          + (∑ k : Fin 128, (x1 (ix2 p k) * x2 (ix2 p (0 : Fin 1))) * x4 (ix2 k q)) + x5 (ix2 (0 : Fin 1) q))
        (Ideal.ofBits .f32 0x00000000#32) :=
  block_comb_apply dot_S4000x128_S128x128_S4000x128_1_0_0_1_n_n_wf bitsLt_bf16_f32 shapeCasts_S4000x128_S4000x128
    shapeCasts_S4000x1_S4000x1 shapeCasts_S128x128_S128x128 shapeCasts_S1x128_S1x128 broadcasts_S4000x1_S4000x128
    broadcasts_S1x128_S4000x128 x0 x1 x2 x3 x4 x5 p q

/-- The block indices over the grid: the three per-node operands and the result move down the rows with the point,
    the weights and the bias stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem lt50_2 (t : Fin cfg2.N) : t.val * 4000 + 4000 ≤ 200000 := by
  have h : t.val < 50 := lt_of_lt_of_eq t.isLt N_2
  omega

/-- Window 0's block at point t is rows 4000·t … of the features. -/
theorem iblk2_0 (c : Dev nD) (t : Fin cfg2.N) :
    iblk2 V c 0 t = rowsAt 4000 t.val (lt50_2 t) (V c main_v31) := by
  obtain ⟨e0, e1, -⟩ := idx2 t
  funext y
  show V c main_v31 (((cfg2.win 0).blk t).view.emb y) = V c main_v31 (ix2 ⟨t.val * 4000 + (y 0).val, _⟩ (y 1))
  refine congrArg (V c main_v31) (funext fun a => Fin.ext ?_)
  match a with
  | ⟨0, _⟩ => show win2_0.index t (0 : Fin 2) * 4000 + 1 * (y 0).val = t.val * 4000 + (y 0).val; rw [e0]; omega
  | ⟨1, _⟩ => show win2_0.index t (1 : Fin 2) * 128 + 1 * (y 1).val = (y 1).val; rw [e1]; omega

/-- Window 1's block at point t is rows 4000·t … of the neighbour sums. -/
theorem iblk2_1 (c : Dev nD) (t : Fin cfg2.N) :
    iblk2 V c 1 t = rowsAt 4000 t.val (lt50_2 t) (V c main_v41) := by
  obtain ⟨-, -, e0, e1, -⟩ := idx2 t
  funext y
  show V c main_v41 (((cfg2.win 1).blk t).view.emb y) = V c main_v41 (ix2 ⟨t.val * 4000 + (y 0).val, _⟩ (y 1))
  refine congrArg (V c main_v41) (funext fun a => Fin.ext ?_)
  match a with
  | ⟨0, _⟩ => show win2_1.index t (0 : Fin 2) * 4000 + 1 * (y 0).val = t.val * 4000 + (y 0).val; rw [e0]; omega
  | ⟨1, _⟩ => show win2_1.index t (1 : Fin 2) * 128 + 1 * (y 1).val = (y 1).val; rw [e1]; omega

/-- Window 2's block at point t is rows 4000·t … of the reciprocal-degree column. -/
theorem iblk2_2 (c : Dev nD) (t : Fin cfg2.N) :
    iblk2 V c 2 t = rowsAt 4000 t.val (lt50_2 t) (V c main_v11) := by
  obtain ⟨-, -, -, -, e0, e1, -⟩ := idx2 t
  funext y
  show V c main_v11 (((cfg2.win 2).blk t).view.emb y) = V c main_v11 (ix2 ⟨t.val * 4000 + (y 0).val, _⟩ (y 1))
  refine congrArg (V c main_v11) (funext fun a => Fin.ext ?_)
  match a with
  | ⟨0, _⟩ => show win2_2.index t (0 : Fin 2) * 4000 + 1 * (y 0).val = t.val * 4000 + (y 0).val; rw [e0]; omega
  | ⟨1, _⟩ => show win2_2.index t (1 : Fin 2) * 1 + 1 * (y 1).val = (y 1).val; rw [e1]; omega

/-- Window 3's block is the whole first weight matrix. -/
theorem iblk2_3 (c : Dev nD) (t : Fin cfg2.N) : iblk2 V c 3 t = V c main_v43 := by
  obtain ⟨-, -, -, -, -, -, e0, e1, -⟩ := idx2 t
  funext y
  show V c main_v43 (((cfg2.win 3).blk t).view.emb y) = V c main_v43 y
  refine congrArg (V c main_v43) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- Window 4's block is the whole second weight matrix. -/
theorem iblk2_4 (c : Dev nD) (t : Fin cfg2.N) : iblk2 V c 4 t = V c main_v45 := by
  obtain ⟨-, -, -, -, -, -, -, -, e0, e1, -⟩ := idx2 t
  funext y
  show V c main_v45 (((cfg2.win 4).blk t).view.emb y) = V c main_v45 y
  refine congrArg (V c main_v45) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- Window 5's block is the whole bias row. -/
theorem iblk2_5 (c : Dev nD) (t : Fin cfg2.N) : iblk2 V c 5 t = V c main_v48 := by
  obtain ⟨-, -, -, -, -, -, -, -, -, -, e0, e1, -⟩ := idx2 t
  funext y
  show V c main_v48 (((cfg2.win 5).blk t).view.emb y) = V c main_v48 y
  refine congrArg (V c main_v48) (funext fun a => Fin.ext ?_)
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- What point t writes back is block t of the layer of the arrays as the call finds them. -/
theorem flushed2 (c : Dev nD) (t : Fin cfg2.N) :
    (dat2 V c).flushed 6 t
      = ((cfg2.win 6).blk t).view.read (Elt Ideal)
          (combLayer (V c main_v31) (V c main_v41) (colOf (V c main_v11)) (V c main_v43) (V c main_v45)
            (rowOf (V c main_v48))) := by
  show (cfg2.win 6).cut (grid2.coords t) ((dat2 V c).after 6 t) = _
  rw [after2_6]
  unfold out2_6
  rw [View.canon_unit_zero hz2_2]
  simp only [View.ld_unit_zero (S := S4000x128) hz2_2, View.ld_unit_zero (S := S4000x1) hz2_2,
    View.ld_unit_zero (S := S128x128) hz2_2, View.ld_unit_zero (S := S1x128) hz2_2]
  rw [iblk2_0 V c t, iblk2_1 V c t, iblk2_2 V c t, iblk2_3 V c t, iblk2_4 V c t, iblk2_5 V c t]
  obtain ⟨-, -, -, -, -, -, -, -, -, -, -, -, e0, e1⟩ := idx2 t
  funext j
  show k2_pay1 (F := Ideal) (rowsAt 4000 t.val (lt50_2 t) (V c main_v31)) (rowsAt 4000 t.val (lt50_2 t) (V c main_v41))
      (rowsAt 4000 t.val (lt50_2 t) (V c main_v11)) (V c main_v43) (V c main_v45) (V c main_v48) j
    = combLayer (V c main_v31) (V c main_v41) (colOf (V c main_v11)) (V c main_v43) (V c main_v45)
        (rowOf (V c main_v48)) (((cfg2.win 6).blk t).view.emb j)
  refine combLayer_block t.val (lt50_2 t) (V c main_v31) (V c main_v41) (V c main_v11) (V c main_v43)
    (V c main_v45) (V c main_v48) _ (fun p q => pay2_apply _ _ _ _ _ _ p q) j _ ?_ ?_
  · show win2_6.index t (0 : Fin 2) * 4000 + 1 * (j 0).val = t.val * 4000 + (j 0).val; rw [e0]; omega
  · show win2_6.index t (1 : Fin 2) * 128 + 1 * (j 1).val = (j 1).val; rw [e1]; omega

/-- An index of the result array is in point t's block iff each coordinate is in the block's range on its axis. -/
theorem mem_blk2 (t : Fin cfg2.N) (i : S200000x128.Idx) :
    i ∈ ((cfg2.win 6).blk t).view.set ↔ ∀ a : Fin 2, win2_6.index t a * S4000x128.size a ≤ (i a).val
      ∧ (i a).val < win2_6.index t a * S4000x128.size a + S4000x128.size a := by
  show i ∈ ((View.whole main_v49).slice (win2_6.rect t)).set ↔ _
  rw [View.set_slice_whole, Rect.mem_set_unit]
  exact Iff.rfl

/-- Every row is in the block of the point its number divided by 4000 names. -/
theorem cover2 (i : S200000x128.Idx) :
    ∃ t : Fin cfg2.N, (cfg2.win 6).flush t = true ∧ i ∈ ((cfg2.win 6).blk t).view.set := by
  have hi0 : (i 0).val < 200000 := (i 0).isLt
  have hi1 : (i 1).val < 128 := (i 1).isLt
  have hN : cfg2.N = 50 := N_2
  let t : Fin cfg2.N := ⟨(i 0).val / 4000, by rw [hN]; omega⟩
  obtain ⟨-, -, -, -, -, -, -, -, -, -, -, -, e0, e1⟩ := idx2 t
  have ht : t.val = (i 0).val / 4000 := rfl
  refine ⟨t, flush2_6 t, ?_⟩
  rw [mem_blk2]
  intro a
  match a with
  | ⟨0, _⟩ =>
    show win2_6.index t (0 : Fin 2) * 4000 ≤ (i 0).val ∧ (i 0).val < win2_6.index t (0 : Fin 2) * 4000 + 4000
    rw [e0, ht]; omega
  | ⟨1, _⟩ =>
    show win2_6.index t (1 : Fin 2) * 128 ≤ (i 1).val ∧ (i 1).val < win2_6.index t (1 : Fin 2) * 128 + 128
    rw [e1]; omega

/-- THE RESULT ARRAY of the call: the layer of the arrays as the call finds them. -/
theorem final2 (c : Dev nD) :
    (dat2 V c).arrAt 6 cfg2.N
      = combLayer (V c main_v31) (V c main_v41) (colOf (V c main_v11)) (V c main_v43) (V c main_v45)
          (rowOf (V c main_v48)) :=
  (dat2 V c).arrAt_eq_of_cover 6 _ (fun t _ => flushed2 V c t) cover2

end Cert.KernelIdeal.Layers

end
-- ==== Proof.KLayer3.lean ====
/-
  Layer 3's pallas_call, read as one array.

  Grid point t of the 50 works on rows 4000·t … 4000·t + 3999: it reads that block of the features, of the neighbour
  sums and of the reciprocal-degree column, the two whole weight matrices and the whole bias row, and writes the same
  block of the result.  What it writes is the layer on those rows, so after the last point the result array is the
  layer of the arrays the call was entered with.
-/
import proofs.«115688_j25512105738358_1_alg».proof.Proof.Gen.KernelIdeal.Frame
import proofs.«115688_j25512105738358_1_alg».proof.Proof.SageBlocks

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem Idealize.ShloMosaic.Pipeline Cert.Sage

variable (V : (c : Dev nD) → (b : Ref sig .tc) → Buf (Elt Ideal) ((c : Thread nD τ).loc b))

theorem hz2_3 : (![0, 0] : Fin 2 → Nat) = fun _ => 0 := funext fun a => by fin_cases a <;> rfl

/-- Entry (p, q) of what the body computes from its six loads. -/
theorem pay3_apply (x0 x1 : Vec Ideal S4000x128 .f32) (x2 : Vec Ideal S4000x1 .f32) (x3 x4 : Vec Ideal S128x128 .f32)
    (x5 : Vec Ideal S1x128 .f32) (p : Fin 4000) (q : Fin 128) :
    k3_pay1 (F := Ideal) x0 x1 x2 x3 x4 x5 (ix2 p q)
      = max ((∑ k : Fin 128, x0 (ix2 p k) * x3 (ix2 k q))
          + (∑ k : Fin 128, (x1 (ix2 p k) * x2 (ix2 p (0 : Fin 1))) * x4 (ix2 k q)) + x5 (ix2 (0 : Fin 1) q))
        (Ideal.ofBits .f32 0x00000000#32) :=
  block_comb_apply dot_S4000x128_S128x128_S4000x128_1_0_0_1_n_n_wf bitsLt_bf16_f32 shapeCasts_S4000x128_S4000x128
    shapeCasts_S4000x1_S4000x1 shapeCasts_S128x128_S128x128 shapeCasts_S1x128_S1x128 broadcasts_S4000x1_S4000x128
    broadcasts_S1x128_S4000x128 x0 x1 x2 x3 x4 x5 p q

/-- The block indices over the grid: the three per-node operands and the result move down the rows with the point,
    the weights and the bias stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem lt50_3 (t : Fin cfg3.N) : t.val * 4000 + 4000 ≤ 200000 := by
  have h : t.val < 50 := lt_of_lt_of_eq t.isLt N_3
  omega

/-- Window 0's block at point t is rows 4000·t … of the features. -/
theorem iblk3_0 (c : Dev nD) (t : Fin cfg3.N) :
    iblk3 V c 0 t = rowsAt 4000 t.val (lt50_3 t) (V c main_v49) := by
  obtain ⟨e0, e1, -⟩ := idx3 t
  funext y
  show V c main_v49 (((cfg3.win 0).blk t).view.emb y) = V c main_v49 (ix2 ⟨t.val * 4000 + (y 0).val, _⟩ (y 1))
  refine congrArg (V c main_v49) (funext fun a => Fin.ext ?_)
  match a with
  | ⟨0, _⟩ => show win3_0.index t (0 : Fin 2) * 4000 + 1 * (y 0).val = t.val * 4000 + (y 0).val; rw [e0]; omega
  | ⟨1, _⟩ => show win3_0.index t (1 : Fin 2) * 128 + 1 * (y 1).val = (y 1).val; rw [e1]; omega

/-- Window 1's block at point t is rows 4000·t … of the neighbour sums. -/
theorem iblk3_1 (c : Dev nD) (t : Fin cfg3.N) :
    iblk3 V c 1 t = rowsAt 4000 t.val (lt50_3 t) (V c main_v59) := by
  obtain ⟨-, -, e0, e1, -⟩ := idx3 t
  funext y
  show V c main_v59 (((cfg3.win 1).blk t).view.emb y) = V c main_v59 (ix2 ⟨t.val * 4000 + (y 0).val, _⟩ (y 1))
  refine congrArg (V c main_v59) (funext fun a => Fin.ext ?_)
  match a with
  | ⟨0, _⟩ => show win3_1.index t (0 : Fin 2) * 4000 + 1 * (y 0).val = t.val * 4000 + (y 0).val; rw [e0]; omega
  | ⟨1, _⟩ => show win3_1.index t (1 : Fin 2) * 128 + 1 * (y 1).val = (y 1).val; rw [e1]; omega

/-- Window 2's block at point t is rows 4000·t … of the reciprocal-degree column. -/
theorem iblk3_2 (c : Dev nD) (t : Fin cfg3.N) :
    iblk3 V c 2 t = rowsAt 4000 t.val (lt50_3 t) (V c main_v11) := by
  obtain ⟨-, -, -, -, e0, e1, -⟩ := idx3 t
  funext y
  show V c main_v11 (((cfg3.win 2).blk t).view.emb y) = V c main_v11 (ix2 ⟨t.val * 4000 + (y 0).val, _⟩ (y 1))
  refine congrArg (V c main_v11) (funext fun a => Fin.ext ?_)
  match a with
  | ⟨0, _⟩ => show win3_2.index t (0 : Fin 2) * 4000 + 1 * (y 0).val = t.val * 4000 + (y 0).val; rw [e0]; omega
  | ⟨1, _⟩ => show win3_2.index t (1 : Fin 2) * 1 + 1 * (y 1).val = (y 1).val; rw [e1]; omega

/-- Window 3's block is the whole first weight matrix. -/
theorem iblk3_3 (c : Dev nD) (t : Fin cfg3.N) : iblk3 V c 3 t = V c main_v61 := by
  obtain ⟨-, -, -, -, -, -, e0, e1, -⟩ := idx3 t
  funext y
  show V c main_v61 (((cfg3.win 3).blk t).view.emb y) = V c main_v61 y
  refine congrArg (V c main_v61) (funext fun a => Fin.ext ?_)
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- Window 4's block is the whole second weight matrix. -/
theorem iblk3_4 (c : Dev nD) (t : Fin cfg3.N) : iblk3 V c 4 t = V c main_v63 := by
  obtain ⟨-, -, -, -, -, -, -, -, e0, e1, -⟩ := idx3 t
  funext y
  show V c main_v63 (((cfg3.win 4).blk t).view.emb y) = V c main_v63 y
  refine congrArg (V c main_v63) (funext fun a => Fin.ext ?_)
  match a with
  | ⟨0, _⟩ => show win3_4.index t (0 : Fin 2) * 128 + 1 * (y 0).val = (y 0).val; rw [e0]; omega
  | ⟨1, _⟩ => show win3_4.index t (1 : Fin 2) * 128 + 1 * (y 1).val = (y 1).val; rw [e1]; omega

/-- Window 5's block is the whole bias row. -/
theorem iblk3_5 (c : Dev nD) (t : Fin cfg3.N) : iblk3 V c 5 t = V c main_v66 := by
  obtain ⟨-, -, -, -, -, -, -, -, -, -, e0, e1, -⟩ := idx3 t
  funext y
  show V c main_v66 (((cfg3.win 5).blk t).view.emb y) = V c main_v66 y
  refine congrArg (V c main_v66) (funext fun a => Fin.ext ?_)
  match a with
  | ⟨0, _⟩ => show win3_5.index t (0 : Fin 2) * 1 + 1 * (y 0).val = (y 0).val; rw [e0]; omega
  | ⟨1, _⟩ => show win3_5.index t (1 : Fin 2) * 128 + 1 * (y 1).val = (y 1).val; rw [e1]; omega

/-- What point t writes back is block t of the layer of the arrays as the call finds them. -/
theorem flushed3 (c : Dev nD) (t : Fin cfg3.N) :
    (dat3 V c).flushed 6 t
      = ((cfg3.win 6).blk t).view.read (Elt Ideal)
          (combLayer (V c main_v49) (V c main_v59) (colOf (V c main_v11)) (V c main_v61) (V c main_v63)
            (rowOf (V c main_v66))) := by
  show (cfg3.win 6).cut (grid3.coords t) ((dat3 V c).after 6 t) = _
  rw [after3_6]
  unfold out3_6
  rw [View.canon_unit_zero hz2_3]
  simp only [View.ld_unit_zero (S := S4000x128) hz2_3, View.ld_unit_zero (S := S4000x1) hz2_3,
    View.ld_unit_zero (S := S128x128) hz2_3, View.ld_unit_zero (S := S1x128) hz2_3]
  rw [iblk3_0 V c t, iblk3_1 V c t, iblk3_2 V c t, iblk3_3 V c t, iblk3_4 V c t, iblk3_5 V c t]
  obtain ⟨-, -, -, -, -, -, -, -, -, -, -, -, e0, e1⟩ := idx3 t
  funext j
  show k3_pay1 (F := Ideal) (rowsAt 4000 t.val (lt50_3 t) (V c main_v49)) (rowsAt 4000 t.val (lt50_3 t) (V c main_v59))
      (rowsAt 4000 t.val (lt50_3 t) (V c main_v11)) (V c main_v61) (V c main_v63) (V c main_v66) j
    = combLayer (V c main_v49) (V c main_v59) (colOf (V c main_v11)) (V c main_v61) (V c main_v63)
        (rowOf (V c main_v66)) (((cfg3.win 6).blk t).view.emb j)
  refine combLayer_block t.val (lt50_3 t) (V c main_v49) (V c main_v59) (V c main_v11) (V c main_v61)
    (V c main_v63) (V c main_v66) _ (fun p q => pay3_apply _ _ _ _ _ _ p q) j _ ?_ ?_
  · show win3_6.index t (0 : Fin 2) * 4000 + 1 * (j 0).val = t.val * 4000 + (j 0).val; rw [e0]; omega
  · show win3_6.index t (1 : Fin 2) * 128 + 1 * (j 1).val = (j 1).val; rw [e1]; omega

/-- An index of the result array is in point t's block iff each coordinate is in the block's range on its axis. -/
theorem mem_blk3 (t : Fin cfg3.N) (i : S200000x128.Idx) :
    i ∈ ((cfg3.win 6).blk t).view.set ↔ ∀ a : Fin 2, win3_6.index t a * S4000x128.size a ≤ (i a).val
      ∧ (i a).val < win3_6.index t a * S4000x128.size a + S4000x128.size a := by
  show i ∈ ((View.whole main_v67).slice (win3_6.rect t)).set ↔ _
  rw [View.set_slice_whole, Rect.mem_set_unit]
  exact Iff.rfl

/-- Every row is in the block of the point its number divided by 4000 names. -/
theorem cover3 (i : S200000x128.Idx) :
    ∃ t : Fin cfg3.N, (cfg3.win 6).flush t = true ∧ i ∈ ((cfg3.win 6).blk t).view.set := by
  have hi0 : (i 0).val < 200000 := (i 0).isLt
  have hi1 : (i 1).val < 128 := (i 1).isLt
  have hN : cfg3.N = 50 := N_3
  let t : Fin cfg3.N := ⟨(i 0).val / 4000, by rw [hN]; omega⟩
  obtain ⟨-, -, -, -, -, -, -, -, -, -, -, -, e0, e1⟩ := idx3 t
  have ht : t.val = (i 0).val / 4000 := rfl
  refine ⟨t, flush3_6 t, ?_⟩
  rw [mem_blk3]
  intro a
  match a with
  | ⟨0, _⟩ =>
    show win3_6.index t (0 : Fin 2) * 4000 ≤ (i 0).val ∧ (i 0).val < win3_6.index t (0 : Fin 2) * 4000 + 4000
    rw [e0, ht]; omega
  | ⟨1, _⟩ =>
    show win3_6.index t (1 : Fin 2) * 128 ≤ (i 1).val ∧ (i 1).val < win3_6.index t (1 : Fin 2) * 128 + 128
    rw [e1]; omega

/-- THE RESULT ARRAY of the call: the layer of the arrays as the call finds them. -/
theorem final3 (c : Dev nD) :
    (dat3 V c).arrAt 6 cfg3.N
      = combLayer (V c main_v49) (V c main_v59) (colOf (V c main_v11)) (V c main_v61) (V c main_v63)
          (rowOf (V c main_v66)) :=
  (dat3 V c).arrAt_eq_of_cover 6 _ (fun t _ => flushed3 V c t) cover3

end Cert.KernelIdeal.Layers

end
-- ==== Proof.Net.lean ====
/-
  The whole network as one function of the eight arguments.

  The irregular parts are host operations in both programs, the same ones in the same order: the in-degree by a scatter-add
  of ones, its guarded reciprocal, and per layer the gather of the source rows and the scatter-add into the destination
  rows.  They are kept as the operations themselves (nothing about a gather or a scatter is needed beyond its being the
  same function on both sides); only the dense part of a layer is read entry by entry.
-/
import proofs.«115688_j25512105738358_1_alg».proof.Proof.Gen.KernelIdeal
import proofs.«115688_j25512105738358_1_alg».proof.Proof.SageBlocks

noncomputable section

namespace Cert.KernelIdeal.Net

open Cert.KernelIdeal Cert.KernelIdeal.Facts₀ Cert.KernelIdeal.Facts Idealize.ShloMosaic Idealize.ShloMosaic.ValueIdx Cert.Sage

/-- The in-degree of every node: ones scattered and added at the edges' destinations (at any float values: the host
    operations that compute it are the same at every reading). -/
def deg {F : FTy → Type} [FloatOps F] (dst : IVec S800000 32) : FVec F S200000 .f32 :=
  Host.scatterAdd scatter_S200000_S800000x1_S800000_n_0_0_1
    (broadcastInDim S200000 ![] bcast_S_S200000 (constant S_ .f32 0x00000000#32))
    (broadcastInDim S800000x1 ![0] bcast_S800000_S800000x1_0 dst)
    (broadcastInDim S800000 ![] bcast_S_S800000 (constant S_ .f32 0x3F800000#32))

/-- The reciprocal in-degree, zero where a node has no in-neighbour: where deg > 0 it is 1 / max (deg, 1). -/
def invDeg {F : FTy → Type} [FloatOps F] (dst : IVec S800000 32) : FVec F S200000 .f32 :=
  select (cmpf .ogt (deg (F := F) dst) (broadcastInDim S200000 ![] bcast_S_S200000 (constant S_ .f32 0x00000000#32)))
    (Host.divf (broadcastInDim S200000 ![] bcast_S_S200000 (constant S_ .f32 0x3F800000#32))
      (maximumf (deg dst) (broadcastInDim S200000 ![] bcast_S_S200000 (constant S_ .f32 0x3F800000#32))))
    (broadcastInDim S200000 ![] bcast_S_S200000 (id (constant S_ .f32 0x00000000#32)))

/-- The sum, for every node, of the features of its in-neighbours: the rows at the edges' sources (a negative source
    counted from the end) gathered, then scattered and added at the edges' destinations into a zero matrix. -/
def aggr (h : FVec Ideal S200000x128 .f32) (src dst : IVec S800000 32) : FVec Ideal S200000x128 .f32 :=
  Host.scatterAdd scatter_S200000x128_S800000x1_S800000x128_1_0_0_1
    (broadcastInDim S200000x128 ![] bcast_S_S200000x128 (constant S_ .f32 0x00000000#32))
    (broadcastInDim S800000x1 ![0] bcast_S800000_S800000x1_0 dst)
    (Host.gather gather_S200000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 200000#32))) src)))

/-- One layer's weight matrix out of the stack of three. -/
def wAt (off : Fin 3 → ℕ) (hs : S3x128x128.Slices off S1x128x128) (w : FVec Ideal S3x128x128 .f32) :
    FVec Ideal S128x128 .f32 :=
  shapeCast S128x128 (extractStridedSlice S1x128x128 off w hs) shapeCasts_S1x128x128_S128x128

/-- One layer's bias vector out of the stack of three. -/
def bAt (off : Fin 2 → ℕ) (hs : S3x128.Slices off S1x128) (b : FVec Ideal S3x128 .f32) : FVec Ideal S128 .f32 :=
  shapeCast S128 (extractStridedSlice S1x128 off b hs) shapeCasts_S1x128_S128

/-- One layer on the features h. -/
def layer (off3 : Fin 3 → ℕ) (h3 : S3x128x128.Slices off3 S1x128x128) (off2 : Fin 2 → ℕ) (h2 : S3x128.Slices off2 S1x128)
    (src dst : IVec S800000 32) (wS wN : FVec Ideal S3x128x128 .f32) (bS : FVec Ideal S3x128 .f32)
    (h : FVec Ideal S200000x128 .f32) : FVec Ideal S200000x128 .f32 :=
  combLayer h (aggr h src dst) (invDeg (F := Ideal) dst) (wAt off3 h3 wS) (wAt off3 h3 wN) (bAt off2 h2 bS)

/-- The network: the input layer, then the three layers. -/
def net (x : FVec Ideal S200000x64 .f32) (src dst : IVec S800000 32) (wIn : FVec Ideal S64x128 .f32)
    (bIn : FVec Ideal S128 .f32) (wS wN : FVec Ideal S3x128x128 .f32) (bS : FVec Ideal S3x128 .f32) :
    FVec Ideal S200000x128 .f32 :=
  layer ![2, 0, 0] slices_S3x128x128_S1x128x128_2_0_0 ![2, 0] slices_S3x128_S1x128_2_0 src dst wS wN bS
    (layer ![1, 0, 0] slices_S3x128x128_S1x128x128_1_0_0 ![1, 0] slices_S3x128_S1x128_1_0 src dst wS wN bS
      (layer ![0, 0, 0] slices_S3x128x128_S1x128x128_0_0_0 ![0, 0] slices_S3x128_S1x128_0_0 src dst wS wN bS
        (inLayer x wIn bIn)))

/-- A vector carried as a one-row matrix, read back as a vector. -/
theorem rowOf_shapeCast (b : FVec Ideal S128 .f32) : rowOf (shapeCast S1x128 b shapeCasts_S128_S1x128) = b := by
  funext j
  obtain ⟨q, rfl⟩ : ∃ q : Fin 128, j = ix1 q := ⟨j 0, eq_ix1 j⟩
  exact shapeCast_a_1a_apply b shapeCasts_S128_S1x128 (0 : Fin 1) q

/-- A vector carried as a one-column matrix, read back as a vector. -/
theorem colOf_shapeCast (v : FVec Ideal S200000 .f32) : colOf (shapeCast S200000x1 v shapeCasts_S200000_S200000x1) = v := by
  funext j
  obtain ⟨p, rfl⟩ : ∃ p : Fin 200000, j = ix1 p := ⟨j 0, eq_ix1 j⟩
  exact Keepdims.shapeCast_a_a1_apply v shapeCasts_S200000_S200000x1 p (0 : Fin 1)

end Cert.KernelIdeal.Net

end
-- ==== Proof.KHost.lean ====
/-
  What the host operations between the calls leave, buffer by buffer.

  A stretch of host operations rewrites the buffers it writes and leaves the rest.  Before the input layer's call the
  stretch computes the reciprocal in-degree column and carries the bias as a row; before each layer's call it gathers
  and scatters the features the call before left, cuts the layer's two weight matrices out of their stacks and carries
  the layer's bias as a row.  Every argument and the degree column pass through unchanged.
-/
import proofs.«115688_j25512105738358_1_alg».proof.Proof.Gen.KernelIdeal.Frame
import proofs.«115688_j25512105738358_1_alg».proof.Proof.Net

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo Cert.Sage

variable (W : Valuation τ sig (Elt Ideal))

/-! ## The host operations before the input layer's call -/

/-- The three stretches before the first call, run one after the other. -/
abbrev pre (W : Valuation τ sig (Elt Ideal)) : Valuation τ sig (Elt Ideal) :=
  StableHlo.after hostOps0_2 (StableHlo.after hostOps0_1 (StableHlo.after hostOps0 W))

theorem pre_keep_main_arg0 : pre W (Proc.devRef .tc main_arg0) = W (Proc.devRef .tc main_arg0) := by
  simp only [pre, hostOps0, hostOps0_1, hostOps0_2]; after_results <;> rfl

theorem pre_keep_main_arg1 : pre W (Proc.devRef .tc main_arg1) = W (Proc.devRef .tc main_arg1) := by
  simp only [pre, hostOps0, hostOps0_1, hostOps0_2]; after_results <;> rfl

theorem pre_keep_main_arg2 : pre W (Proc.devRef .tc main_arg2) = W (Proc.devRef .tc main_arg2) := by
  simp only [pre, hostOps0, hostOps0_1, hostOps0_2]; after_results <;> rfl

theorem pre_keep_main_arg3 : pre W (Proc.devRef .tc main_arg3) = W (Proc.devRef .tc main_arg3) := by
  simp only [pre, hostOps0, hostOps0_1, hostOps0_2]; after_results <;> rfl

theorem pre_keep_main_arg5 : pre W (Proc.devRef .tc main_arg5) = W (Proc.devRef .tc main_arg5) := by
  simp only [pre, hostOps0, hostOps0_1, hostOps0_2]; after_results <;> rfl

theorem pre_keep_main_arg6 : pre W (Proc.devRef .tc main_arg6) = W (Proc.devRef .tc main_arg6) := by
  simp only [pre, hostOps0, hostOps0_1, hostOps0_2]; after_results <;> rfl

theorem pre_keep_main_arg7 : pre W (Proc.devRef .tc main_arg7) = W (Proc.devRef .tc main_arg7) := by
  simp only [pre, hostOps0, hostOps0_1, hostOps0_2]; after_results <;> rfl

set_option maxHeartbeats 4000000 in
/-- The reciprocal in-degree, as a column: the three stretches read at any float values (the guarded reciprocal is a
    module-local function of the program, inlined at its call). -/
theorem pre_invCol_any {F : FTy → Type} [FloatOps F] (W : Valuation τ sig (Elt F)) :
    StableHlo.after hostOps0_2 (StableHlo.after hostOps0_1 (StableHlo.after hostOps0 W)) (Proc.devRef .tc main_v11)
      = shapeCast S200000x1 (Net.invDeg (F := F) (W (Proc.devRef .tc main_arg2))) shapeCasts_S200000_S200000x1 := by
  simp only [hostOps0, hostOps0_1, hostOps0_2]; after_results <;> rfl

/-- The reciprocal in-degree, as a column. -/
theorem pre_invCol : pre W (Proc.devRef .tc main_v11)
    = shapeCast S200000x1 (Net.invDeg (F := Ideal) (W (Proc.devRef .tc main_arg2))) shapeCasts_S200000_S200000x1 :=
  pre_invCol_any W

/-- The input layer's bias, as a row. -/
theorem pre_biasRow : pre W (Proc.devRef .tc main_v12)
    = shapeCast S1x128 (W (Proc.devRef .tc main_arg4)) shapeCasts_S128_S1x128 := by
  simp only [pre, hostOps0, hostOps0_1, hostOps0_2]; after_results <;> rfl

/-! ## The host operations before layer 1's call -/

theorem host1_keep_main_arg1 : StableHlo.after hostOps1 W (Proc.devRef .tc main_arg1) = W (Proc.devRef .tc main_arg1) := by
  simp only [hostOps1]; after_results <;> rfl

theorem host1_keep_main_arg2 : StableHlo.after hostOps1 W (Proc.devRef .tc main_arg2) = W (Proc.devRef .tc main_arg2) := by
  simp only [hostOps1]; after_results <;> rfl

theorem host1_keep_main_arg5 : StableHlo.after hostOps1 W (Proc.devRef .tc main_arg5) = W (Proc.devRef .tc main_arg5) := by
  simp only [hostOps1]; after_results <;> rfl

theorem host1_keep_main_arg6 : StableHlo.after hostOps1 W (Proc.devRef .tc main_arg6) = W (Proc.devRef .tc main_arg6) := by
  simp only [hostOps1]; after_results <;> rfl

theorem host1_keep_main_arg7 : StableHlo.after hostOps1 W (Proc.devRef .tc main_arg7) = W (Proc.devRef .tc main_arg7) := by
  simp only [hostOps1]; after_results <;> rfl

theorem host1_keep_main_v11 : StableHlo.after hostOps1 W (Proc.devRef .tc main_v11) = W (Proc.devRef .tc main_v11) := by
  simp only [hostOps1]; after_results <;> rfl

theorem host1_keep_main_v13 : StableHlo.after hostOps1 W (Proc.devRef .tc main_v13) = W (Proc.devRef .tc main_v13) := by
  simp only [hostOps1]; after_results <;> rfl

set_option maxHeartbeats 4000000 in
/-- The neighbour sums of the features the call before left. -/
theorem host1_sums : StableHlo.after hostOps1 W (Proc.devRef .tc main_v23)
    = Net.aggr (W (Proc.devRef .tc main_v13)) (W (Proc.devRef .tc main_arg1)) (W (Proc.devRef .tc main_arg2)) := by
  simp only [hostOps1]; after_results <;> rfl

theorem host1_wself : StableHlo.after hostOps1 W (Proc.devRef .tc main_v25)
    = Net.wAt ![0, 0, 0] slices_S3x128x128_S1x128x128_0_0_0 (W (Proc.devRef .tc main_arg5)) := by
  simp only [hostOps1]; after_results <;> rfl

theorem host1_wneigh : StableHlo.after hostOps1 W (Proc.devRef .tc main_v27)
    = Net.wAt ![0, 0, 0] slices_S3x128x128_S1x128x128_0_0_0 (W (Proc.devRef .tc main_arg6)) := by
  simp only [hostOps1]; after_results <;> rfl

theorem host1_bias : StableHlo.after hostOps1 W (Proc.devRef .tc main_v30)
    = shapeCast S1x128 (Net.bAt ![0, 0] slices_S3x128_S1x128_0_0 (W (Proc.devRef .tc main_arg7))) shapeCasts_S128_S1x128 := by
  simp only [hostOps1]; after_results <;> rfl

/-! ## The host operations before layer 2's call -/

theorem host2_keep_main_arg1 : StableHlo.after hostOps2 W (Proc.devRef .tc main_arg1) = W (Proc.devRef .tc main_arg1) := by
  simp only [hostOps2]; after_results <;> rfl

theorem host2_keep_main_arg2 : StableHlo.after hostOps2 W (Proc.devRef .tc main_arg2) = W (Proc.devRef .tc main_arg2) := by
  simp only [hostOps2]; after_results <;> rfl

theorem host2_keep_main_arg5 : StableHlo.after hostOps2 W (Proc.devRef .tc main_arg5) = W (Proc.devRef .tc main_arg5) := by
  simp only [hostOps2]; after_results <;> rfl

theorem host2_keep_main_arg6 : StableHlo.after hostOps2 W (Proc.devRef .tc main_arg6) = W (Proc.devRef .tc main_arg6) := by
  simp only [hostOps2]; after_results <;> rfl

theorem host2_keep_main_arg7 : StableHlo.after hostOps2 W (Proc.devRef .tc main_arg7) = W (Proc.devRef .tc main_arg7) := by
  simp only [hostOps2]; after_results <;> rfl

theorem host2_keep_main_v11 : StableHlo.after hostOps2 W (Proc.devRef .tc main_v11) = W (Proc.devRef .tc main_v11) := by
  simp only [hostOps2]; after_results <;> rfl

theorem host2_keep_main_v31 : StableHlo.after hostOps2 W (Proc.devRef .tc main_v31) = W (Proc.devRef .tc main_v31) := by
  simp only [hostOps2]; after_results <;> rfl

set_option maxHeartbeats 4000000 in
/-- The neighbour sums of the features the call before left. -/
theorem host2_sums : StableHlo.after hostOps2 W (Proc.devRef .tc main_v41)
    = Net.aggr (W (Proc.devRef .tc main_v31)) (W (Proc.devRef .tc main_arg1)) (W (Proc.devRef .tc main_arg2)) := by
  simp only [hostOps2]; after_results <;> rfl

theorem host2_wself : StableHlo.after hostOps2 W (Proc.devRef .tc main_v43)
    = Net.wAt ![1, 0, 0] slices_S3x128x128_S1x128x128_1_0_0 (W (Proc.devRef .tc main_arg5)) := by
  simp only [hostOps2]; after_results <;> rfl

theorem host2_wneigh : StableHlo.after hostOps2 W (Proc.devRef .tc main_v45)
    = Net.wAt ![1, 0, 0] slices_S3x128x128_S1x128x128_1_0_0 (W (Proc.devRef .tc main_arg6)) := by
  simp only [hostOps2]; after_results <;> rfl

theorem host2_bias : StableHlo.after hostOps2 W (Proc.devRef .tc main_v48)
    = shapeCast S1x128 (Net.bAt ![1, 0] slices_S3x128_S1x128_1_0 (W (Proc.devRef .tc main_arg7))) shapeCasts_S128_S1x128 := by
  simp only [hostOps2]; after_results <;> rfl

/-! ## The host operations before layer 3's call -/

theorem host3_keep_main_arg1 : StableHlo.after hostOps3 W (Proc.devRef .tc main_arg1) = W (Proc.devRef .tc main_arg1) := by
  simp only [hostOps3]; after_results <;> rfl

theorem host3_keep_main_arg2 : StableHlo.after hostOps3 W (Proc.devRef .tc main_arg2) = W (Proc.devRef .tc main_arg2) := by
  simp only [hostOps3]; after_results <;> rfl

theorem host3_keep_main_arg5 : StableHlo.after hostOps3 W (Proc.devRef .tc main_arg5) = W (Proc.devRef .tc main_arg5) := by
  simp only [hostOps3]; after_results <;> rfl

theorem host3_keep_main_arg6 : StableHlo.after hostOps3 W (Proc.devRef .tc main_arg6) = W (Proc.devRef .tc main_arg6) := by
  simp only [hostOps3]; after_results <;> rfl

theorem host3_keep_main_arg7 : StableHlo.after hostOps3 W (Proc.devRef .tc main_arg7) = W (Proc.devRef .tc main_arg7) := by
  simp only [hostOps3]; after_results <;> rfl

theorem host3_keep_main_v11 : StableHlo.after hostOps3 W (Proc.devRef .tc main_v11) = W (Proc.devRef .tc main_v11) := by
  simp only [hostOps3]; after_results <;> rfl

theorem host3_keep_main_v49 : StableHlo.after hostOps3 W (Proc.devRef .tc main_v49) = W (Proc.devRef .tc main_v49) := by
  simp only [hostOps3]; after_results <;> rfl

set_option maxHeartbeats 4000000 in
/-- The neighbour sums of the features the call before left. -/
theorem host3_sums : StableHlo.after hostOps3 W (Proc.devRef .tc main_v59)
    = Net.aggr (W (Proc.devRef .tc main_v49)) (W (Proc.devRef .tc main_arg1)) (W (Proc.devRef .tc main_arg2)) := by
  simp only [hostOps3]; after_results <;> rfl

theorem host3_wself : StableHlo.after hostOps3 W (Proc.devRef .tc main_v61)
    = Net.wAt ![2, 0, 0] slices_S3x128x128_S1x128x128_2_0_0 (W (Proc.devRef .tc main_arg5)) := by
  simp only [hostOps3]; after_results <;> rfl

theorem host3_wneigh : StableHlo.after hostOps3 W (Proc.devRef .tc main_v63)
    = Net.wAt ![2, 0, 0] slices_S3x128x128_S1x128x128_2_0_0 (W (Proc.devRef .tc main_arg6)) := by
  simp only [hostOps3]; after_results <;> rfl

theorem host3_bias : StableHlo.after hostOps3 W (Proc.devRef .tc main_v66)
    = shapeCast S1x128 (Net.bAt ![2, 0] slices_S3x128_S1x128_2_0 (W (Proc.devRef .tc main_arg7))) shapeCasts_S128_S1x128 := by
  simp only [hostOps3]; after_results <;> rfl

end Cert.KernelIdeal.Fold

end
-- ==== Proof.KFold.lean ====
/-
  The buffer contents at every boundary of @main, walked from the launch to the return.

  Five arguments (the two index vectors, the two weight stacks, the bias stack) and the reciprocal-degree column pass
  through every stretch of host operations and every call unchanged.  The input layer's call leaves the input layer
  of the arguments; each later call leaves the layer of what the call before left, its neighbour sums gathered and
  scattered by the host operations in between.  At the return the result buffer holds the network of the arguments.
-/
import proofs.«115688_j25512105738358_1_alg».proof.Proof.KIn
import proofs.«115688_j25512105738358_1_alg».proof.Proof.KLayer1
import proofs.«115688_j25512105738358_1_alg».proof.Proof.KLayer2
import proofs.«115688_j25512105738358_1_alg».proof.Proof.KLayer3
import proofs.«115688_j25512105738358_1_alg».proof.Proof.KHost

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo Idealize.ShloMosaic.Pipeline Cert.Sage Cert.KernelIdeal.Layers

variable (m : (ℓ : Loc nD τ sig) → Buf (Elt Ideal) ℓ) (ρ : Dev nD → PrngReg) (c : Dev nD)

/-- What every boundary's contents keep: five arguments as launched, and the reciprocal in-degree as a column. -/
structure Kept (W : Valuation τ sig (Elt Ideal)) : Prop where
  src : W (Proc.devRef .tc main_arg1) = m ((c : Thread nD τ).loc main_arg1)
  dst : W (Proc.devRef .tc main_arg2) = m ((c : Thread nD τ).loc main_arg2)
  wS : W (Proc.devRef .tc main_arg5) = m ((c : Thread nD τ).loc main_arg5)
  wN : W (Proc.devRef .tc main_arg6) = m ((c : Thread nD τ).loc main_arg6)
  bS : W (Proc.devRef .tc main_arg7) = m ((c : Thread nD τ).loc main_arg7)
  inv : W (Proc.devRef .tc main_v11)
    = shapeCast S200000x1 (Net.invDeg (F := Ideal) (m ((c : Thread nD τ).loc main_arg2))) shapeCasts_S200000_S200000x1

/-! ## The input layer: the host operations before its call, then the call -/

/-- At the first call's entry. -/
theorem kept_W3 : Kept m c (W3 m ρ c) where
  src := pre_keep_main_arg1 (W0 m ρ c)
  dst := pre_keep_main_arg2 (W0 m ρ c)
  wS := pre_keep_main_arg5 (W0 m ρ c)
  wN := pre_keep_main_arg6 (W0 m ρ c)
  bS := pre_keep_main_arg7 (W0 m ρ c)
  inv := pre_invCol (W0 m ρ c)

/-- Through the first call: it writes none of them. -/
theorem kept_W4 : Kept m c (W4 m ρ c) where
  src := (W4_of_ne m ρ c main_arg1 (by decide)).trans (kept_W3 m ρ c).src
  dst := (W4_of_ne m ρ c main_arg2 (by decide)).trans (kept_W3 m ρ c).dst
  wS := (W4_of_ne m ρ c main_arg5 (by decide)).trans (kept_W3 m ρ c).wS
  wN := (W4_of_ne m ρ c main_arg6 (by decide)).trans (kept_W3 m ρ c).wN
  bS := (W4_of_ne m ρ c main_arg7 (by decide)).trans (kept_W3 m ρ c).bS
  inv := (W4_of_ne m ρ c main_v11 (by decide)).trans (kept_W3 m ρ c).inv

/-- After the first call its result buffer holds the input layer of the arguments. -/
theorem feat_W4 : W4 m ρ c (Proc.devRef .tc main_v13) = inLayer (m ((c : Thread nD τ).loc main_arg0)) (m ((c : Thread nD τ).loc main_arg3)) (m ((c : Thread nD τ).loc main_arg4)) := by
  refine (W4_arr m ρ c 3).trans ((final0 (V3 m ρ) c).trans ?_)
  have e0 : V3 m ρ c main_arg0 = m ((c : Thread nD τ).loc main_arg0) := pre_keep_main_arg0 (W0 m ρ c)
  have e1 : V3 m ρ c main_arg3 = m ((c : Thread nD τ).loc main_arg3) := pre_keep_main_arg3 (W0 m ρ c)
  have e2 : V3 m ρ c main_v12 = shapeCast S1x128 (m ((c : Thread nD τ).loc main_arg4)) shapeCasts_S128_S1x128 := pre_biasRow (W0 m ρ c)
  rw [e0, e1, e2, Net.rowOf_shapeCast]

/-! ## Layer 1: the host operations before its call, then the call -/

/-- Through the host operations before layer 1's call. -/
theorem kept_W5 : Kept m c (W5 m ρ c) where
  src := (host1_keep_main_arg1 (W4 m ρ c)).trans (kept_W4 m ρ c).src
  dst := (host1_keep_main_arg2 (W4 m ρ c)).trans (kept_W4 m ρ c).dst
  wS := (host1_keep_main_arg5 (W4 m ρ c)).trans (kept_W4 m ρ c).wS
  wN := (host1_keep_main_arg6 (W4 m ρ c)).trans (kept_W4 m ρ c).wN
  bS := (host1_keep_main_arg7 (W4 m ρ c)).trans (kept_W4 m ρ c).bS
  inv := (host1_keep_main_v11 (W4 m ρ c)).trans (kept_W4 m ρ c).inv

/-- Through layer 1's call: it writes none of the arguments, and reads the degree column through a window. -/
theorem kept_W6 : Kept m c (W6 m ρ c) where
  src := (W6_of_ne m ρ c main_arg1 (by decide)).trans (kept_W5 m ρ c).src
  dst := (W6_of_ne m ρ c main_arg2 (by decide)).trans (kept_W5 m ρ c).dst
  wS := (W6_of_ne m ρ c main_arg5 (by decide)).trans (kept_W5 m ρ c).wS
  wN := (W6_of_ne m ρ c main_arg6 (by decide)).trans (kept_W5 m ρ c).wN
  bS := (W6_of_ne m ρ c main_arg7 (by decide)).trans (kept_W5 m ρ c).bS
  inv := (W6_arr m ρ c 2).trans (((dat1 (V5 m ρ) c).arrAt_in 2 rfl _).trans
    ((A_eq1 (V5 m ρ) c 2).trans (kept_W5 m ρ c).inv))

/-- After layer 1's call its result buffer holds the layer of what the call before left. -/
theorem feat_W6 : W6 m ρ c (Proc.devRef .tc main_v31) = Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4))) := by
  refine (W6_arr m ρ c 6).trans ((final1 (V5 m ρ) c).trans ?_)
  have e0 : V5 m ρ c main_v13 = inLayer (m ((c : Thread nD τ).loc main_arg0)) (m ((c : Thread nD τ).loc main_arg3)) (m ((c : Thread nD τ).loc main_arg4)) :=
    (host1_keep_main_v13 (W4 m ρ c)).trans (feat_W4 m ρ c)
  have e1 : V5 m ρ c main_v23 = Net.aggr (inLayer (m ((c : Thread nD τ).loc main_arg0)) (m ((c : Thread nD τ).loc main_arg3)) (m ((c : Thread nD τ).loc main_arg4))) (m ((c : Thread nD τ).loc main_arg1)) (m ((c : Thread nD τ).loc main_arg2)) :=
    (host1_sums (W4 m ρ c)).trans (by rw [feat_W4 m ρ c, (kept_W4 m ρ c).src, (kept_W4 m ρ c).dst])
  have e2 : V5 m ρ c main_v11
      = shapeCast S200000x1 (Net.invDeg (F := Ideal) (m ((c : Thread nD τ).loc main_arg2))) shapeCasts_S200000_S200000x1 := (kept_W5 m ρ c).inv
  have e3 : V5 m ρ c main_v25 = Net.wAt ![0, 0, 0] slices_S3x128x128_S1x128x128_0_0_0 (m ((c : Thread nD τ).loc main_arg5)) :=
    (host1_wself (W4 m ρ c)).trans (by rw [(kept_W4 m ρ c).wS])
  have e4 : V5 m ρ c main_v27 = Net.wAt ![0, 0, 0] slices_S3x128x128_S1x128x128_0_0_0 (m ((c : Thread nD τ).loc main_arg6)) :=
    (host1_wneigh (W4 m ρ c)).trans (by rw [(kept_W4 m ρ c).wN])
  have e5 : V5 m ρ c main_v30
      = shapeCast S1x128 (Net.bAt ![0, 0] slices_S3x128_S1x128_0_0 (m ((c : Thread nD τ).loc main_arg7))) shapeCasts_S128_S1x128 :=
    (host1_bias (W4 m ρ c)).trans (by rw [(kept_W4 m ρ c).bS])
  rw [e0, e1, e2, e3, e4, e5, Net.colOf_shapeCast, Net.rowOf_shapeCast]
  rfl

/-! ## Layer 2: the host operations before its call, then the call -/

/-- Through the host operations before layer 2's call. -/
theorem kept_W7 : Kept m c (W7 m ρ c) where
  src := (host2_keep_main_arg1 (W6 m ρ c)).trans (kept_W6 m ρ c).src
  dst := (host2_keep_main_arg2 (W6 m ρ c)).trans (kept_W6 m ρ c).dst
  wS := (host2_keep_main_arg5 (W6 m ρ c)).trans (kept_W6 m ρ c).wS
  wN := (host2_keep_main_arg6 (W6 m ρ c)).trans (kept_W6 m ρ c).wN
  bS := (host2_keep_main_arg7 (W6 m ρ c)).trans (kept_W6 m ρ c).bS
  inv := (host2_keep_main_v11 (W6 m ρ c)).trans (kept_W6 m ρ c).inv

/-- Through layer 2's call: it writes none of the arguments, and reads the degree column through a window. -/
theorem kept_W8 : Kept m c (W8 m ρ c) where
  src := (W8_of_ne m ρ c main_arg1 (by decide)).trans (kept_W7 m ρ c).src
  dst := (W8_of_ne m ρ c main_arg2 (by decide)).trans (kept_W7 m ρ c).dst
  wS := (W8_of_ne m ρ c main_arg5 (by decide)).trans (kept_W7 m ρ c).wS
  wN := (W8_of_ne m ρ c main_arg6 (by decide)).trans (kept_W7 m ρ c).wN
  bS := (W8_of_ne m ρ c main_arg7 (by decide)).trans (kept_W7 m ρ c).bS
  inv := (W8_arr m ρ c 2).trans (((dat2 (V7 m ρ) c).arrAt_in 2 rfl _).trans
    ((A_eq2 (V7 m ρ) c 2).trans (kept_W7 m ρ c).inv))

/-- After layer 2's call its result buffer holds the layer of what the call before left. -/
theorem feat_W8 : W8 m ρ c (Proc.devRef .tc main_v49) = Net.layer ![1, 0, 0] slices_S3x128x128_S1x128x128_1_0_0 ![1, 0] slices_S3x128_S1x128_1_0 (m ((c : Thread nD τ).loc main_arg1)) (m ((c : Thread nD τ).loc main_arg2)) (m ((c : Thread nD τ).loc main_arg5)) (m ((c : Thread nD τ).loc main_arg6)) (m ((c : Thread nD τ).loc main_arg7)) (Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4)))) := by
  refine (W8_arr m ρ c 6).trans ((final2 (V7 m ρ) c).trans ?_)
  have e0 : V7 m ρ c main_v31 = Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4))) :=
    (host2_keep_main_v31 (W6 m ρ c)).trans (feat_W6 m ρ c)
  have e1 : V7 m ρ c main_v41 = Net.aggr (Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4)))) (m ((c : Thread nD τ).loc main_arg1)) (m ((c : Thread nD τ).loc main_arg2)) :=
    (host2_sums (W6 m ρ c)).trans (by rw [feat_W6 m ρ c, (kept_W6 m ρ c).src, (kept_W6 m ρ c).dst])
  have e2 : V7 m ρ c main_v11
      = shapeCast S200000x1 (Net.invDeg (F := Ideal) (m ((c : Thread nD τ).loc main_arg2))) shapeCasts_S200000_S200000x1 := (kept_W7 m ρ c).inv
  have e3 : V7 m ρ c main_v43 = Net.wAt ![1, 0, 0] slices_S3x128x128_S1x128x128_1_0_0 (m ((c : Thread nD τ).loc main_arg5)) :=
    (host2_wself (W6 m ρ c)).trans (by rw [(kept_W6 m ρ c).wS])
  have e4 : V7 m ρ c main_v45 = Net.wAt ![1, 0, 0] slices_S3x128x128_S1x128x128_1_0_0 (m ((c : Thread nD τ).loc main_arg6)) :=
    (host2_wneigh (W6 m ρ c)).trans (by rw [(kept_W6 m ρ c).wN])
  have e5 : V7 m ρ c main_v48
      = shapeCast S1x128 (Net.bAt ![1, 0] slices_S3x128_S1x128_1_0 (m ((c : Thread nD τ).loc main_arg7))) shapeCasts_S128_S1x128 :=
    (host2_bias (W6 m ρ c)).trans (by rw [(kept_W6 m ρ c).bS])
  rw [e0, e1, e2, e3, e4, e5, Net.colOf_shapeCast, Net.rowOf_shapeCast]
  rfl

/-! ## Layer 3: the host operations before its call, then the call -/

/-- Through the host operations before layer 3's call. -/
theorem kept_W9 : Kept m c (W9 m ρ c) where
  src := (host3_keep_main_arg1 (W8 m ρ c)).trans (kept_W8 m ρ c).src
  dst := (host3_keep_main_arg2 (W8 m ρ c)).trans (kept_W8 m ρ c).dst
  wS := (host3_keep_main_arg5 (W8 m ρ c)).trans (kept_W8 m ρ c).wS
  wN := (host3_keep_main_arg6 (W8 m ρ c)).trans (kept_W8 m ρ c).wN
  bS := (host3_keep_main_arg7 (W8 m ρ c)).trans (kept_W8 m ρ c).bS
  inv := (host3_keep_main_v11 (W8 m ρ c)).trans (kept_W8 m ρ c).inv

/-- Through layer 3's call: it writes none of the arguments, and reads the degree column through a window. -/
theorem kept_W10 : Kept m c (W10 m ρ c) where
  src := (W10_of_ne m ρ c main_arg1 (by decide)).trans (kept_W9 m ρ c).src
  dst := (W10_of_ne m ρ c main_arg2 (by decide)).trans (kept_W9 m ρ c).dst
  wS := (W10_of_ne m ρ c main_arg5 (by decide)).trans (kept_W9 m ρ c).wS
  wN := (W10_of_ne m ρ c main_arg6 (by decide)).trans (kept_W9 m ρ c).wN
  bS := (W10_of_ne m ρ c main_arg7 (by decide)).trans (kept_W9 m ρ c).bS
  inv := (W10_arr m ρ c 2).trans (((dat3 (V9 m ρ) c).arrAt_in 2 rfl _).trans
    ((A_eq3 (V9 m ρ) c 2).trans (kept_W9 m ρ c).inv))

/-- After layer 3's call its result buffer holds the layer of what the call before left. -/
theorem feat_W10 : W10 m ρ c (Proc.devRef .tc main_v67) = Net.layer ![2, 0, 0] slices_S3x128x128_S1x128x128_2_0_0 ![2, 0] slices_S3x128_S1x128_2_0 (m ((c : Thread nD τ).loc main_arg1)) (m ((c : Thread nD τ).loc main_arg2)) (m ((c : Thread nD τ).loc main_arg5)) (m ((c : Thread nD τ).loc main_arg6)) (m ((c : Thread nD τ).loc main_arg7)) (Net.layer ![1, 0, 0] slices_S3x128x128_S1x128x128_1_0_0 ![1, 0] slices_S3x128_S1x128_1_0 (m ((c : Thread nD τ).loc main_arg1)) (m ((c : Thread nD τ).loc main_arg2)) (m ((c : Thread nD τ).loc main_arg5)) (m ((c : Thread nD τ).loc main_arg6)) (m ((c : Thread nD τ).loc main_arg7)) (Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4))))) := by
  refine (W10_arr m ρ c 6).trans ((final3 (V9 m ρ) c).trans ?_)
  have e0 : V9 m ρ c main_v49 = Net.layer ![1, 0, 0] slices_S3x128x128_S1x128x128_1_0_0 ![1, 0] slices_S3x128_S1x128_1_0 (m ((c : Thread nD τ).loc main_arg1)) (m ((c : Thread nD τ).loc main_arg2)) (m ((c : Thread nD τ).loc main_arg5)) (m ((c : Thread nD τ).loc main_arg6)) (m ((c : Thread nD τ).loc main_arg7)) (Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4)))) :=
    (host3_keep_main_v49 (W8 m ρ c)).trans (feat_W8 m ρ c)
  have e1 : V9 m ρ c main_v59 = Net.aggr (Net.layer ![1, 0, 0] slices_S3x128x128_S1x128x128_1_0_0 ![1, 0] slices_S3x128_S1x128_1_0 (m ((c : Thread nD τ).loc main_arg1)) (m ((c : Thread nD τ).loc main_arg2)) (m ((c : Thread nD τ).loc main_arg5)) (m ((c : Thread nD τ).loc main_arg6)) (m ((c : Thread nD τ).loc main_arg7)) (Net.layer ![0, 0, 0] slices_S3x128x128_S1x128x128_0_0_0 ![0, 0] slices_S3x128_S1x128_0_0 (m ((c : Thread nD τ).loc main_arg1)) (m ((c : Thread nD τ).loc main_arg2)) (m ((c : Thread nD τ).loc main_arg5)) (m ((c : Thread nD τ).loc main_arg6)) (m ((c : Thread nD τ).loc main_arg7)) (inLayer (m ((c : Thread nD τ).loc main_arg0)) (m ((c : Thread nD τ).loc main_arg3)) (m ((c : Thread nD τ).loc main_arg4))))) (m ((c : Thread nD τ).loc main_arg1)) (m ((c : Thread nD τ).loc main_arg2)) :=
    (host3_sums (W8 m ρ c)).trans (by rw [feat_W8 m ρ c, (kept_W8 m ρ c).src, (kept_W8 m ρ c).dst])
  have e2 : V9 m ρ c main_v11
      = shapeCast S200000x1 (Net.invDeg (F := Ideal) (m ((c : Thread nD τ).loc main_arg2))) shapeCasts_S200000_S200000x1 := (kept_W9 m ρ c).inv
  have e3 : V9 m ρ c main_v61 = Net.wAt ![2, 0, 0] slices_S3x128x128_S1x128x128_2_0_0 (m ((c : Thread nD τ).loc main_arg5)) :=
    (host3_wself (W8 m ρ c)).trans (by rw [(kept_W8 m ρ c).wS])
  have e4 : V9 m ρ c main_v63 = Net.wAt ![2, 0, 0] slices_S3x128x128_S1x128x128_2_0_0 (m ((c : Thread nD τ).loc main_arg6)) :=
    (host3_wneigh (W8 m ρ c)).trans (by rw [(kept_W8 m ρ c).wN])
  have e5 : V9 m ρ c main_v66
      = shapeCast S1x128 (Net.bAt ![2, 0] slices_S3x128_S1x128_2_0 (m ((c : Thread nD τ).loc main_arg7))) shapeCasts_S128_S1x128 :=
    (host3_bias (W8 m ρ c)).trans (by rw [(kept_W8 m ρ c).bS])
  rw [e0, e1, e2, e3, e4, e5, Net.colOf_shapeCast, Net.rowOf_shapeCast]
  rfl

/-- THE RESULT: at the return the result buffer holds the network of the arguments. -/
theorem result_eq : W10 m ρ c (Proc.devRef .tc main_v67)
    = Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  feat_W10 m ρ c

end Cert.KernelIdeal.Fold

end
-- ==== Proof.RefValue.lean ====
/-
  The reference's result is the network of its arguments.

  The reference is a straight line of host operations; its result, as one composed term of the arguments, is the input
  layer in its host form under three layers in their host form.  Each host form is the layer read entry by entry.
-/
import proofs.«115688_j25512105738358_1_alg».proof.Proof.RefRun
import proofs.«115688_j25512105738358_1_alg».proof.Proof.Net

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.ShloMosaic.ValueIdx Idealize.SL.Sem Cert.Sage
open Cert.KernelIdeal.Net (layer net aggr invDeg wAt bAt)

/-- The input layer as the host computes it. -/
def refIn (x : FVec Ideal S200000x64 .f32) (w : FVec Ideal S64x128 .f32) (b : FVec Ideal S128 .f32) :
    FVec Ideal S200000x128 .f32 :=
  Host.tanh (addf (Host.dotGeneral dot_S200000x64_S64x128_S200000x128_1_0_0_1_n_n none x w)
    (broadcastInDim S200000x128 ![0, 1] bcast_S1x128_S200000x128_0_1 (broadcastInDim S1x128 ![1] bcast_S128_S1x128_1 b)))

/-- One layer as the host computes it. -/
def refLayer (off3 : Fin 3 → ℕ) (h3 : S3x128x128.Slices off3 S1x128x128) (off2 : Fin 2 → ℕ) (h2 : S3x128.Slices off2 S1x128)
    (src dst : IVec S800000 32) (wS wN : FVec Ideal S3x128x128 .f32) (bS : FVec Ideal S3x128 .f32)
    (h : FVec Ideal S200000x128 .f32) : FVec Ideal S200000x128 .f32 :=
  maximumf (addf (addf
        (Host.dotGeneral dot_S200000x128_S128x128_S200000x128_1_0_0_1_n_n none h (wAt off3 h3 wS))
        (Host.dotGeneral dot_S200000x128_S128x128_S200000x128_1_0_0_1_n_n none
          (mulf (aggr h src dst)
            (broadcastInDim S200000x128 ![0, 1] bcast_S200000x1_S200000x128_0_1
              (broadcastInDim S200000x1 ![0] bcast_S200000_S200000x1_0 (invDeg (F := Ideal) dst))))
          (wAt off3 h3 wN)))
      (broadcastInDim S200000x128 ![0, 1] bcast_S1x128_S200000x128_0_1
        (broadcastInDim S1x128 ![1] bcast_S128_S1x128_1 (bAt off2 h2 bS))))
    (broadcastInDim S200000x128 ![] bcast_S_S200000x128 (constant S_ .f32 0x00000000#32))

/-- The host's input layer is the input layer. -/
theorem refIn_eq (x : FVec Ideal S200000x64 .f32) (w : FVec Ideal S64x128 .f32) (b : FVec Ideal S128 .f32) :
    refIn x w b = inLayer x w b :=
  host_inLayer dot_S200000x64_S64x128_S200000x128_1_0_0_1_n_n_wf bcast_S128_S1x128_1 bcast_S1x128_S200000x128_0_1 x w b

/-- The host's layer is the layer. -/
theorem refLayer_eq (off3 : Fin 3 → ℕ) (h3 : S3x128x128.Slices off3 S1x128x128) (off2 : Fin 2 → ℕ)
    (h2 : S3x128.Slices off2 S1x128) (src dst : IVec S800000 32) (wS wN : FVec Ideal S3x128x128 .f32)
    (bS : FVec Ideal S3x128 .f32) (h : FVec Ideal S200000x128 .f32) :
    refLayer off3 h3 off2 h2 src dst wS wN bS h = layer off3 h3 off2 h2 src dst wS wN bS h :=
  host_combLayer dot_S200000x128_S128x128_S200000x128_1_0_0_1_n_n_wf bcast_S200000_S200000x1_0
    bcast_S200000x1_S200000x128_0_1 bcast_S128_S1x128_1 bcast_S1x128_S200000x128_0_1 bcast_S_S200000x128
    h (aggr h src dst) (invDeg (F := Ideal) dst) (wAt off3 h3 wS) (wAt off3 h3 wN) (bAt off2 h2 bS)

variable (m : (ℓ : Loc nD τ sig) → Buf (Elt Ideal) ℓ) (c : Dev nD)

set_option maxHeartbeats 4000000 in
/-- The reference's composed term is the host's input layer under the host's three layers. -/
theorem res_nest : RunP.res_main_v91 (F := Ideal) m c
    = refLayer ![2, 0, 0] slices_S3x128x128_S1x128x128_2_0_0 ![2, 0] slices_S3x128_S1x128_2_0 (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (refLayer ![1, 0, 0] slices_S3x128x128_S1x128x128_1_0_0 ![1, 0] slices_S3x128_S1x128_1_0 (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (refLayer ![0, 0, 0] slices_S3x128x128_S1x128x128_0_0_0 ![0, 0] slices_S3x128_S1x128_0_0 (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (refIn (m ((c.tc : Thread nD τ).loc main_arg0)) (m ((c.tc : Thread nD τ).loc main_arg3)) (m ((c.tc : Thread nD τ).loc main_arg4))))) := rfl

/-- THE REFERENCE'S RESULT is the network of its arguments. -/
theorem res_eq : RunP.res_main_v91 (F := Ideal) m c
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res_nest]
  simp only [refIn_eq, refLayer_eq]
  rfl

end Cert.ReferenceIdeal.RefValue

end
-- ==== Proof.lean ====
/-
  A three-layer mean-aggregation graph network: a Pallas program against its jnp reference, on the extended reals.

  Both programs compute, for 200000 nodes with 64 input features, 128 hidden features and 800000 edges,
      h₀ = tanh (x·w_in + b_in),     hₗ₊₁ = max (hₗ·w_self[l] + ((Σ over in-neighbours of hₗ)·deg⁻¹)·w_neigh[l] + b[l], 0).
  The gather of the source rows, the scatter-add into the destination rows and the guarded reciprocal of the in-degree
  are host operations in both, the same ones in the same order.  The dense part of a layer is one whole product on the
  host in the reference and, in the kernel program, a pallas_call over 50 row blocks of 4000 nodes, each block a matmul
  into a zero accumulator.  A layer's entry (p, q) depends on row p of the per-node operands only, so the blocks of the
  layer are the layer's blocks, and a block's matmul and the whole product are the same sum over the contracted
  axis.  No law that needs finiteness is used: the two sides are the same expression entry by entry, and the
  precondition is never opened.

  The kernel program's value is read off its run segment by segment (Proof/KRun.lean names the result; Proof/KFold.lean
  walks the buffer contents from the launch to the return through Proof/KIn.lean, Proof/KLayer1.lean … KLayer3.lean and
  Proof/KHost.lean); the reference's value is its run's composed term (Proof/RefRun.lean) read as the network
  (Proof/RefValue.lean); Proof/Net.lean states the network, Proof/SageSpec.lean … SageBlocks.lean the layers entry by
  entry.
-/
import proofs.«115688_j25512105738358_1_alg».proof.Defs
import proofs.«115688_j25512105738358_1_alg».proof.Proof.Gen.Kernel
import proofs.«115688_j25512105738358_1_alg».proof.Proof.Gen.Kernel.Skeleton
import proofs.«115688_j25512105738358_1_alg».proof.Proof.Gen.Kernel.Launch
import proofs.«115688_j25512105738358_1_alg».proof.Proof.Gen.Kernel.Points
import proofs.«115688_j25512105738358_1_alg».proof.Proof.Gen.Kernel.Frame
import proofs.«115688_j25512105738358_1_alg».proof.Proof.Gen.KernelIdeal
import proofs.«115688_j25512105738358_1_alg».proof.Proof.Gen.KernelIdeal.Skeleton
import proofs.«115688_j25512105738358_1_alg».proof.Proof.Gen.KernelIdeal.Launch
import proofs.«115688_j25512105738358_1_alg».proof.Proof.Gen.KernelIdeal.Points
import proofs.«115688_j25512105738358_1_alg».proof.Proof.Gen.KernelIdeal.Frame
import proofs.«115688_j25512105738358_1_alg».proof.Proof.Gen.ReferenceIdeal
import proofs.«115688_j25512105738358_1_alg».proof.Proof.Gen.Pre_finite_inputs
import proofs.«115688_j25512105738358_1_alg».proof.Proof.KRun
import proofs.«115688_j25512105738358_1_alg».proof.Proof.KFold
import proofs.«115688_j25512105738358_1_alg».proof.Proof.RefRun
import proofs.«115688_j25512105738358_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
